-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x256x256 : Shape := ⟨3, ![3, 256, 256]⟩
abbrev S16x1024 : Shape := ⟨2, ![16, 1024]⟩
abbrev S1024 : Shape := ⟨1, ![1024]⟩
abbrev S1024x1024 : Shape := ⟨2, ![1024, 1024]⟩
abbrev S1024x24 : Shape := ⟨2, ![1024, 24]⟩
abbrev S24 : Shape := ⟨1, ![24]⟩
abbrev S_ : Shape := ⟨0, ![]⟩

class Facts : Prop where
  bcast_S_S3x256x256 : S_.BroadcastsInDim S3x256x256 (![] : Fin 0 → Fin S3x256x256.rank)
  reducesTo_S3x256x256_S_d0_1_2 : S3x256x256.ReducesTo [0, 1, 2] S_
  h_S_ : 0 < S_.numel

variable [Facts]

def fn {F : FTy → Type} [FloatOps F] (main_arg0 : FVec F S3x256x256 .f32) (main_arg1 : IVec S16x1024 1) (main_arg2 : IVec S1024 32) (main_arg3 : IVec S1024x1024 1) (main_arg4 : IVec S1024 32) (main_arg5 : IVec S1024x24 1) (main_arg6 : IVec S24 32) : IVec S_ 1 :=
  let main_v0 : FVec F S3x256x256 .f32 := Host.absf main_arg0
  let main_cst : FVec F S_ .f32 := constant S_ .f32 0x7F800000#32
  let main_v1 : FVec F S3x256x256 .f32 := broadcastInDim S3x256x256 ![] bcast_S_S3x256x256 main_cst
  let main_v2 : IVec S3x256x256 1 := cmpf .olt main_v0 main_v1
  let main_c : IVec S_ 1 := constantI S_ 1 1#1
  let main_v3 : IVec S_ 1 := (fun x v => Host.reduce IntOp.andi x v reducesTo_S3x256x256_S_d0_1_2 h_S_) main_v2 main_c
  main_v3
-- ==== Kernel.lean ====
abbrev S3x256x256 : Shape := ⟨3, ![3, 256, 256]⟩
abbrev S16x1024 : Shape := ⟨2, ![16, 1024]⟩
abbrev S1024 : Shape := ⟨1, ![1024]⟩
abbrev S1024x1024 : Shape := ⟨2, ![1024, 1024]⟩
abbrev S1024x24 : Shape := ⟨2, ![1024, 24]⟩
abbrev S24 : Shape := ⟨1, ![24]⟩
abbrev S3x24 : Shape := ⟨2, ![3, 24]⟩
abbrev S256 : Shape := ⟨1, ![256]⟩
abbrev S256x1 : Shape := ⟨2, ![256, 1]⟩
abbrev S8 : Shape := ⟨1, ![8]⟩
abbrev S_ : Shape := ⟨0, ![]⟩
abbrev S1x8 : Shape := ⟨2, ![1, 8]⟩
abbrev S256x8 : Shape := ⟨2, ![256, 8]⟩
abbrev S256x1x8 : Shape := ⟨3, ![256, 1, 8]⟩
abbrev S256x256x8 : Shape := ⟨3, ![256, 256, 8]⟩
abbrev S1x256x8 : Shape := ⟨3, ![1, 256, 8]⟩
abbrev S256x256x16 : Shape := ⟨3, ![256, 256, 16]⟩
abbrev S65536x16 : Shape := ⟨2, ![65536, 16]⟩
abbrev S3x65536 : Shape := ⟨2, ![3, 65536]⟩
abbrev S1x1024 : Shape := ⟨2, ![1, 1024]⟩
abbrev S1x24 : Shape := ⟨2, ![1, 24]⟩
abbrev S1024x16 : Shape := ⟨2, ![1024, 16]⟩
abbrev S3x1024 : Shape := ⟨2, ![3, 1024]⟩
abbrev S24x1024 : Shape := ⟨2, ![24, 1024]⟩

abbrev nBuf : Space → Nat
  | .hbm => 109
  | .vmem => 15
  | .smem => 0
  | _ => 0

abbrev bufTy : (tb : Table) → Fin (tcTables nBuf tb) → BufTy
  | .hbm, ⟨0, _⟩ => ⟨S3x256x256, .f32⟩
  | .hbm, ⟨1, _⟩ => ⟨S16x1024, .i1⟩
  | .hbm, ⟨2, _⟩ => ⟨S1024, .i32⟩
  | .hbm, ⟨3, _⟩ => ⟨S1024x1024, .i1⟩
  | .hbm, ⟨4, _⟩ => ⟨S1024, .i32⟩
  | .hbm, ⟨5, _⟩ => ⟨S1024x24, .i1⟩
  | .hbm, ⟨6, _⟩ => ⟨S24, .i32⟩
  | .hbm, ⟨7, _⟩ => ⟨S3x24, .f32⟩
  | .hbm, ⟨8, _⟩ => ⟨S256, .i32⟩
  | .hbm, ⟨9, _⟩ => ⟨S256x1, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S1x8, .i32⟩
  | .hbm, ⟨18, _⟩ => ⟨S256x8, .i32⟩
  | .hbm, ⟨19, _⟩ => ⟨S256x8, .i32⟩
  | .hbm, ⟨20, _⟩ => ⟨S256x8, .i32⟩
  | .hbm, ⟨21, _⟩ => ⟨S_, .i32⟩
  | .hbm, ⟨22, _⟩ => ⟨S256x8, .i32⟩
  | .hbm, ⟨23, _⟩ => ⟨S256x8, .i32⟩
  | .hbm, ⟨24, _⟩ => ⟨S_, .i32⟩
  | .hbm, ⟨25, _⟩ => ⟨S256x8, .i32⟩
  | .hbm, ⟨26, _⟩ => ⟨S256x8, .i1⟩
  | .hbm, ⟨27, _⟩ => ⟨S256x8, .i1⟩
  | .hbm, ⟨28, _⟩ => ⟨S256, .i32⟩
  | .hbm, ⟨29, _⟩ => ⟨S256x1, .i32⟩
  | .hbm, ⟨30, _⟩ => ⟨S8, .i32⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S_, .i32⟩
  | .hbm, ⟨35, _⟩ => ⟨S8, .i32⟩
  | .hbm, ⟨36, _⟩ => ⟨S8, .i32⟩
  | .hbm, ⟨37, _⟩ => ⟨S1x8, .i32⟩
  | .hbm, ⟨38, _⟩ => ⟨S256x8, .i32⟩
  | .hbm, ⟨39, _⟩ => ⟨S256x8, .i32⟩
  | .hbm, ⟨40, _⟩ => ⟨S256x8, .i32⟩
  | .hbm, ⟨41, _⟩ => ⟨S_, .i32⟩
  | .hbm, ⟨42, _⟩ => ⟨S256x8, .i32⟩
  | .hbm, ⟨43, _⟩ => ⟨S256x8, .i32⟩
  | .hbm, ⟨44, _⟩ => ⟨S_, .i32⟩
  | .hbm, ⟨45, _⟩ => ⟨S256x8, .i32⟩
  | .hbm, ⟨46, _⟩ => ⟨S256x8, .i1⟩
  | .hbm, ⟨47, _⟩ => ⟨S256x8, .i1⟩
  | .hbm, ⟨48, _⟩ => ⟨S256x1x8, .i1⟩
  | .hbm, ⟨49, _⟩ => ⟨S256x256x8, .i1⟩
  | .hbm, ⟨50, _⟩ => ⟨S1x256x8, .i1⟩
  | .hbm, ⟨51, _⟩ => ⟨S256x256x8, .i1⟩
  | .hbm, ⟨52, _⟩ => ⟨S256x256x16, .i1⟩
  | .hbm, ⟨53, _⟩ => ⟨S65536x16, .i1⟩
  | .hbm, ⟨54, _⟩ => ⟨S65536x16, .bf16⟩
  | .hbm, ⟨55, _⟩ => ⟨S3x65536, .f32⟩
  | .hbm, ⟨56, _⟩ => ⟨S16x1024, .f32⟩
  | .hbm, ⟨57, _⟩ => ⟨S_, .f32⟩
  | .hbm, ⟨58, _⟩ => ⟨S16x1024, .f32⟩
  | .hbm, ⟨59, _⟩ => ⟨S16x1024, .f32⟩
  | .hbm, ⟨60, _⟩ => ⟨S_, .f32⟩
  | .hbm, ⟨61, _⟩ => ⟨S16x1024, .f32⟩
  | .hbm, ⟨62, _⟩ => ⟨S16x1024, .f32⟩
  | .hbm, ⟨63, _⟩ => ⟨S16x1024, .bf16⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S1x1024, .f32⟩
  | .hbm, ⟨72, _⟩ => ⟨S1024x1024, .f32⟩
  | .hbm, ⟨73, _⟩ => ⟨S_, .f32⟩
  | .hbm, ⟨74, _⟩ => ⟨S1024x1024, .f32⟩
  | .hbm, ⟨75, _⟩ => ⟨S1024x1024, .f32⟩
  | .hbm, ⟨76, _⟩ => ⟨S_, .f32⟩
  | .hbm, ⟨77, _⟩ => ⟨S1024x1024, .f32⟩
  | .hbm, ⟨78, _⟩ => ⟨S1024x1024, .f32⟩
  | .hbm, ⟨79, _⟩ => ⟨S1024x1024, .bf16⟩
  | .hbm, ⟨80, _⟩ => ⟨S_, .f32⟩
  | .hbm, ⟨81, _⟩ => ⟨S1024, .f32⟩
  | .hbm, ⟨82, _⟩ => ⟨S1024, .f32⟩
  | .hbm, ⟨83, _⟩ => ⟨S_, .f32⟩
  | .hbm, ⟨84, _⟩ => ⟨S1024, .f32⟩
  | .hbm, ⟨85, _⟩ => ⟨S1024, .f32⟩
  | .hbm, ⟨86, _⟩ => ⟨S1024, .f32⟩
  | .hbm, ⟨87, _⟩ => ⟨S1x1024, .f32⟩
  | .hbm, ⟨88, _⟩ => ⟨S1024x24, .f32⟩
  | .hbm, ⟨89, _⟩ => ⟨S_, .f32⟩
  | .hbm, ⟨90, _⟩ => ⟨S1024x24, .f32⟩
  | .hbm, ⟨91, _⟩ => ⟨S1024x24, .f32⟩
  | .hbm, ⟨92, _⟩ => ⟨S_, .f32⟩
  | .hbm, ⟨93, _⟩ => ⟨S1024x24, .f32⟩
  | .hbm, ⟨94, _⟩ => ⟨S1024x24, .f32⟩
  | .hbm, ⟨95, _⟩ => ⟨S1024x24, .bf16⟩
  | .hbm, ⟨96, _⟩ => ⟨S_, .f32⟩
  | .hbm, ⟨97, _⟩ => ⟨S24, .f32⟩
  | .hbm, ⟨98, _⟩ => ⟨S24, .f32⟩
  | .hbm, ⟨99, _⟩ => ⟨S_, .f32⟩
  | .hbm, ⟨100, _⟩ => ⟨S24, .f32⟩
  | .hbm, ⟨101, _⟩ => ⟨S24, .f32⟩
  | .hbm, ⟨102, _⟩ => ⟨S24, .f32⟩
  | .hbm, ⟨103, _⟩ => ⟨S1x24, .f32⟩
  | .hbm, ⟨104, _⟩ => ⟨S3x24, .bf16⟩
  | .hbm, ⟨105, _⟩ => ⟨S3x65536, .i32⟩
  | .hbm, ⟨106, _⟩ => ⟨S3x65536, .f32⟩
  | .hbm, ⟨107, _⟩ => ⟨S3x256x256, .i32⟩
  | .hbm, ⟨108, _⟩ => ⟨S3x256x256, .f32⟩
  | .local _ .vmem, ⟨0, _⟩ => ⟨S1024x16, .bf16⟩
  | .local _ .vmem, ⟨1, _⟩ => ⟨S1024x16, .bf16⟩
  | .local _ .vmem, ⟨2, _⟩ => ⟨S16x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x24, .bf16⟩
  | .local _ .vmem, ⟨7, _⟩ => ⟨S1x24, .f32⟩
  | .local _ .vmem, ⟨8, _⟩ => ⟨S3x24, .bf16⟩
  | .local _ .vmem, ⟨9, _⟩ => ⟨S3x1024, .f32⟩
  | .local _ .vmem, ⟨10, _⟩ => ⟨S3x1024, .f32⟩
  | .local _ .vmem, ⟨11, _⟩ => ⟨S3x1024, .i32⟩
  | .local _ .vmem, ⟨12, _⟩ => ⟨S3x1024, .i32⟩
  | .local _ .vmem, ⟨13, _⟩ => ⟨S3x1024, .f32⟩
  | .local _ .vmem, ⟨14, _⟩ => ⟨S3x1024, .f32⟩
  | _, _ => ⟨S3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_17 : Ref sig .tc := ⟨.hbm, 96, rfl⟩
abbrev main_v70 : Ref sig .tc := ⟨.hbm, 97, rfl⟩
abbrev main_v71 : Ref sig .tc := ⟨.hbm, 98, rfl⟩
abbrev main_cst_18 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77_0 : Ref sig .tc := ⟨.hbm, 105, rfl⟩
abbrev main_v77_1 : Ref sig .tc := ⟨.hbm, 106, rfl⟩
abbrev main_v78 : Ref sig .tc := ⟨.hbm, 107, rfl⟩
abbrev main_v79 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x24 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x24 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x1024 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S256_S256x1_0 : S256.BroadcastsInDim S256x1 (![0] : Fin 1 → Fin S256x1.rank)
  bcast_S_S8 : S_.BroadcastsInDim S8 (![] : Fin 0 → Fin S8.rank)
  bcast_S8_S1x8_1 : S8.BroadcastsInDim S1x8 (![1] : Fin 1 → Fin S1x8.rank)
  bcast_S256x1_S256x8_0_1 : S256x1.BroadcastsInDim S256x8 (![0, 1] : Fin 2 → Fin S256x8.rank)
  bcast_S1x8_S256x8_0_1 : S1x8.BroadcastsInDim S256x8 (![0, 1] : Fin 2 → Fin S256x8.rank)
  bcast_S_S256x8 : S_.BroadcastsInDim S256x8 (![] : Fin 0 → Fin S256x8.rank)
  bcast_S256x8_S256x1x8_0_2 : S256x8.BroadcastsInDim S256x1x8 (![0, 2] : Fin 2 → Fin S256x1x8.rank)
  bcast_S256x1x8_S256x256x8_0_1_2 : S256x1x8.BroadcastsInDim S256x256x8 (![0, 1, 2] : Fin 3 → Fin S256x256x8.rank)
  bcast_S256x8_S1x256x8_1_2 : S256x8.BroadcastsInDim S1x256x8 (![1, 2] : Fin 2 → Fin S1x256x8.rank)
  bcast_S1x256x8_S256x256x8_0_1_2 : S1x256x8.BroadcastsInDim S256x256x8 (![0, 1, 2] : Fin 3 → Fin S256x256x8.rank)
  concatenates_S256x256x8_S256x256x8_S256x256x16_d2 : Shape.Concatenates [S256x256x8, S256x256x8] S256x256x16 2
  shapeCasts_S256x256x16_S65536x16 : S256x256x16.ShapeCasts S65536x16
  shapeCasts_S3x256x256_S3x65536 : S3x256x256.ShapeCasts S3x65536
  bcast_S_S16x1024 : S_.BroadcastsInDim S16x1024 (![] : Fin 0 → Fin S16x1024.rank)
  bitsLt_bf16_f32 : FTy.bits .bf16 < FTy.bits .f32
  reducesTo_S16x1024_S1024_d0 : S16x1024.ReducesTo [0] S1024
  h_S_ : 0 < S_.numel
  bcast_S_S1024 : S_.BroadcastsInDim S1024 (![] : Fin 0 → Fin S1024.rank)
  shapeCasts_S1024_S1x1024 : S1024.ShapeCasts S1x1024
  bcast_S_S1024x1024 : S_.BroadcastsInDim S1024x1024 (![] : Fin 0 → Fin S1024x1024.rank)
  reducesTo_S1024x1024_S1024_d0 : S1024x1024.ReducesTo [0] S1024
  bcast_S_S1024x24 : S_.BroadcastsInDim S1024x24 (![] : Fin 0 → Fin S1024x24.rank)
  reducesTo_S1024x24_S24_d0 : S1024x24.ReducesTo [0] S24
  bcast_S_S24 : S_.BroadcastsInDim S24 (![] : Fin 0 → Fin S24.rank)
  shapeCasts_S24_S1x24 : S24.ShapeCasts S1x24
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x24_S1024x24_0_0 : ∀ a, (![0, 0] : Fin 2 → Nat) a + S1024x24.size a ≤ S1024x24.size a
  h_S1024x24 : 0 < S1024x24.numel
  shapeCasts_S1024x24_S1024x24 : S1024x24.ShapeCasts S1024x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S1024x24 : S1x24.Broadcasts S1024x24
  transposes_S1024x24_p1_0_S24x1024 : S1024x24.Transposes [1, 0] S24x1024
  inb_S3x24_S3x24_0_0 : ∀ a, (![0, 0] : Fin 2 → Nat) a + S3x24.size a ≤ S3x24.size a
  h_S3x24 : 0 < S3x24.numel
  shapeCasts_S3x24_S3x24 : S3x24.ShapeCasts S3x24
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  shapeCasts_S3x65536_S3x256x256 : S3x65536.ShapeCasts S3x256x256
  dot_S1024x16_S16x1024_S1024x1024_1_0_0_1_n_n_wf : DotDims.WF S1024x16 S16x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x24_S1024x24_1_0_0_1_n_n_wf : DotDims.WF S1024x1024 S1024x24 S1024x24 [1] [0] [0] [1] [] []
  dot_S3x24_S24x1024_S3x1024_1_0_0_1_n_n_wf : DotDims.WF S3x24 S24x1024 S3x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S65536x16.size a
  hwx0_0 : ∀ i : grid0.Coords, EltTy.bits .bf16 = 32 ∨ (Rect.block (s := S65536x16) S1024x16.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .bf16 = 32 ∨ (Rect.block (s := S16x1024) S16x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x24.size a ≤ S1024x24.size a
  hwx0_5 : ∀ i : grid0.Coords, EltTy.bits .bf16 = 32 ∨ (Rect.block (s := S1024x24) S1024x24.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x24.size a ≤ S1x24.size a
  hwx0_6 : ∀ i : grid0.Coords, EltTy.bits .f32 = 32 ∨ (Rect.block (s := S1x24) S1x24.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x24.size a ≤ S3x24.size a
  hwx0_7 : ∀ i : grid0.Coords, EltTy.bits .bf16 = 32 ∨ (Rect.block (s := S3x24) S3x24.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3x1024.size a ≤ S3x65536.size a
  hwx0_8 : ∀ i : grid0.Coords, EltTy.bits .f32 = 32 ∨ (Rect.block (s := S3x65536) S3x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3x1024.size a ≤ S3x65536.size a
  hwx0_9 : ∀ i : grid0.Coords, EltTy.bits .i32 = 32 ∨ (Rect.block (s := S3x65536) S3x1024.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3x1024.size a ≤ S3x65536.size a
  hwx0_10 : ∀ i : grid0.Coords, EltTy.bits .f32 = 32 ∨ (Rect.block (s := S3x65536) S3x1024.size (cc0_transform_10 i) (hinb0_10 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x24_S1024x24_1_0_0_1_n_n : DotDims S1024x1024 S1024x24 S1024x24 where
  lhsContracting := [1]
  rhsContracting := [0]
  lhsNonContracting := [0]
  rhsNonContracting := [1]
  lhsBatch := []
  rhsBatch := []
  wf := dot_S1024x1024_S1024x24_S1024x24_1_0_0_1_n_n_wf
def dot_S3x24_S24x1024_S3x1024_1_0_0_1_n_n : DotDims S3x24 S24x1024 S3x1024 where
  lhsContracting := [1]
  rhsContracting := [0]
  lhsNonContracting := [0]
  rhsNonContracting := [1]
  lhsBatch := []
  rhsBatch := []
  wf := dot_S3x24_S24x1024_S3x1024_1_0_0_1_n_n_wf

abbrev win0_0 : Pipeline.Window sig grid0 :=
  Pipeline.Window.ofSpec (Memref.whole main_v38) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v63) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v69) S1024x24.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v75) S1x24.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v76) S3x24.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v39) S3x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v77_0) S3x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v77_1) S3x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S3x256x256 : Shape := ⟨3, ![3, 256, 256]⟩
abbrev S16x1024 : Shape := ⟨2, ![16, 1024]⟩
abbrev S1024 : Shape := ⟨1, ![1024]⟩
abbrev S1024x1024 : Shape := ⟨2, ![1024, 1024]⟩
abbrev S1024x24 : Shape := ⟨2, ![1024, 24]⟩
abbrev S24 : Shape := ⟨1, ![24]⟩
abbrev S256 : Shape := ⟨1, ![256]⟩
abbrev S256x1 : Shape := ⟨2, ![256, 1]⟩
abbrev S8 : Shape := ⟨1, ![8]⟩
abbrev S_ : Shape := ⟨0, ![]⟩
abbrev S1x8 : Shape := ⟨2, ![1, 8]⟩
abbrev S256x8 : Shape := ⟨2, ![256, 8]⟩
abbrev S256x1x8 : Shape := ⟨3, ![256, 1, 8]⟩
abbrev S256x256x8 : Shape := ⟨3, ![256, 256, 8]⟩
abbrev S1x256x8 : Shape := ⟨3, ![1, 256, 8]⟩
abbrev S256x256x16 : Shape := ⟨3, ![256, 256, 16]⟩
abbrev S65536x16 : Shape := ⟨2, ![65536, 16]⟩
abbrev S65536x1024 : Shape := ⟨2, ![65536, 1024]⟩
abbrev S1x1024 : Shape := ⟨2, ![1, 1024]⟩
abbrev S65536x24 : Shape := ⟨2, ![65536, 24]⟩
abbrev S1x24 : Shape := ⟨2, ![1, 24]⟩
abbrev S256x256x3x8 : Shape := ⟨4, ![256, 256, 3, 8]⟩
abbrev S1x1x1x8 : Shape := ⟨4, ![1, 1, 1, 8]⟩
abbrev S256x256x3 : Shape := ⟨3, ![256, 256, 3]⟩

abbrev nBuf : Space → Nat
  | .hbm => 209
  | .vmem => 0
  | .smem => 0
  | _ => 0

abbrev hbmTy0_0 (i : Nat) : BufTy := match i % 128 with
  | 0 => ⟨S3x256x256, .f32⟩
  | 1 => ⟨S16x1024, .i1⟩
  | 2 => ⟨S1024, .i32⟩
  | 3 => ⟨S1024x1024, .i1⟩
  | 4 => ⟨S1024, .i32⟩
  | 5 => ⟨S1024x24, .i1⟩
  | 6 => ⟨S24, .i32⟩
  | 7 => ⟨S256, .i32⟩
  | 8 => ⟨S256x1, .i32⟩
  | 9 => ⟨S8, .i32⟩
  | 10 => ⟨S_, .i32⟩
  | 11 => ⟨S8, .i32⟩
  | 12 => ⟨S8, .i32⟩
  | 13 => ⟨S_, .i32⟩
  | 14 => ⟨S8, .i32⟩
  | 15 => ⟨S8, .i32⟩
  | 16 => ⟨S1x8, .i32⟩
  | 17 => ⟨S256x8, .i32⟩
  | 18 => ⟨S256x8, .i32⟩
  | 19 => ⟨S256x8, .i32⟩
  | 20 => ⟨S_, .i32⟩
  | 21 => ⟨S256x8, .i32⟩
  | 22 => ⟨S256x8, .i32⟩
  | 23 => ⟨S_, .i32⟩
  | 24 => ⟨S256x8, .i32⟩
  | 25 => ⟨S256x8, .i1⟩
  | 26 => ⟨S256x8, .i1⟩
  | 27 => ⟨S256, .i32⟩
  | 28 => ⟨S256x1, .i32⟩
  | 29 => ⟨S8, .i32⟩
  | 30 => ⟨S_, .i32⟩
  | 31 => ⟨S8, .i32⟩
  | 32 => ⟨S8, .i32⟩
  | 33 => ⟨S_, .i32⟩
  | 34 => ⟨S8, .i32⟩
  | 35 => ⟨S8, .i32⟩
  | 36 => ⟨S1x8, .i32⟩
  | 37 => ⟨S256x8, .i32⟩
  | 38 => ⟨S256x8, .i32⟩
  | 39 => ⟨S256x8, .i32⟩
  | 40 => ⟨S_, .i32⟩
  | 41 => ⟨S256x8, .i32⟩
  | 42 => ⟨S256x8, .i32⟩
  | 43 => ⟨S_, .i32⟩
  | 44 => ⟨S256x8, .i32⟩
  | 45 => ⟨S256x8, .i1⟩
  | 46 => ⟨S256x8, .i1⟩
  | 47 => ⟨S256x1x8, .i1⟩
  | 48 => ⟨S256x256x8, .i1⟩
  | 49 => ⟨S1x256x8, .i1⟩
  | 50 => ⟨S256x256x8, .i1⟩
  | 51 => ⟨S256x256x16, .i1⟩
  | 52 => ⟨S65536x16, .i1⟩
  | 53 => ⟨S65536x16, .f32⟩
  | 54 => ⟨S16x1024, .f32⟩
  | 55 => ⟨S65536x1024, .f32⟩
  | 56 => ⟨S_, .f32⟩
  | 57 => ⟨S65536x16, .f32⟩
  | 58 => ⟨S65536x16, .f32⟩
  | 59 => ⟨S_, .f32⟩
  | 60 => ⟨S16x1024, .f32⟩
  | 61 => ⟨S16x1024, .f32⟩
  | 62 => ⟨S65536x1024, .f32⟩
  | 63 => ⟨S65536x1024, .f32⟩
  | 64 => ⟨S1024, .f32⟩
  | 65 => ⟨S1x1024, .f32⟩
  | 66 => ⟨S65536x1024, .f32⟩
  | 67 => ⟨S65536x1024, .i1⟩
  | 68 => ⟨S65536x1024, .f32⟩
  | 69 => ⟨S1024x1024, .f32⟩
  | 70 => ⟨S65536x1024, .f32⟩
  | 71 => ⟨S_, .f32⟩
  | 72 => ⟨S65536x1024, .f32⟩
  | 73 => ⟨S65536x1024, .f32⟩
  | 74 => ⟨S_, .f32⟩
  | 75 => ⟨S1024x1024, .f32⟩
  | 76 => ⟨S1024x1024, .f32⟩
  | 77 => ⟨S65536x1024, .f32⟩
  | 78 => ⟨S65536x1024, .f32⟩
  | 79 => ⟨S1024, .f32⟩
  | 80 => ⟨S1x1024, .f32⟩
  | 81 => ⟨S65536x1024, .f32⟩
  | 82 => ⟨S65536x1024, .i1⟩
  | 83 => ⟨S65536x1024, .f32⟩
  | 84 => ⟨S1024x24, .f32⟩
  | 85 => ⟨S65536x24, .f32⟩
  | 86 => ⟨S_, .f32⟩
  | 87 => ⟨S65536x1024, .f32⟩
  | 88 => ⟨S65536x1024, .f32⟩
  | 89 => ⟨S_, .f32⟩
  | 90 => ⟨S1024x24, .f32⟩
  | 91 => ⟨S1024x24, .f32⟩
  | 92 => ⟨S65536x24, .f32⟩
  | 93 => ⟨S65536x24, .f32⟩
  | 94 => ⟨S24, .f32⟩
  | 95 => ⟨S1x24, .f32⟩
  | 96 => ⟨S65536x24, .f32⟩
  | 97 => ⟨S65536x24, .i1⟩
  | 98 => ⟨S256x256x3x8, .i1⟩
  | 99 => ⟨S8, .i32⟩
  | 100 => ⟨S_, .i32⟩
  | 101 => ⟨S8, .i32⟩
  | 102 => ⟨S8, .i32⟩
  | 103 => ⟨S_, .i32⟩
  | 104 => ⟨S8, .i32⟩
  | 105 => ⟨S8, .i32⟩
  | 106 => ⟨S_, .i32⟩
  | 107 => ⟨S_, .i32⟩
  | 108 => ⟨S_, .i1⟩
  | 109 => ⟨S_, .i32⟩
  | 110 => ⟨S8, .i32⟩
  | 111 => ⟨S8, .i1⟩
  | 112 => ⟨S8, .i1⟩
  | 113 => ⟨S8, .i1⟩
  | 114 => ⟨S_, .i32⟩
  | 115 => ⟨S_, .i32⟩
  | 116 => ⟨S8, .i32⟩
  | 117 => ⟨S8, .i32⟩
  | 118 => ⟨S8, .i32⟩
  | 119 => ⟨S_, .i32⟩
  | 120 => ⟨S8, .i32⟩
  | 121 => ⟨S8, .i32⟩
  | 122 => ⟨S_, .i32⟩
  | 123 => ⟨S8, .i32⟩
  | 124 => ⟨S8, .i32⟩
  | 125 => ⟨S_, .i32⟩
  | 126 => ⟨S8, .i32⟩
  | 127 => ⟨S8, .i1⟩
  | _ => ⟨S3x256x256, .f32⟩

abbrev hbmTy0_1 (i : Nat) : BufTy := match i % 128 with
  | 0 => ⟨S8, .i32⟩
  | 1 => ⟨S_, .i32⟩
  | 2 => ⟨S_, .i32⟩
  | 3 => ⟨S_, .i32⟩
  | 4 => ⟨S_, .i32⟩
  | 5 => ⟨S8, .i32⟩
  | 6 => ⟨S8, .i32⟩
  | 7 => ⟨S_, .i32⟩
  | 8 => ⟨S8, .i32⟩
  | 9 => ⟨S8, .i32⟩
  | 10 => ⟨S8, .i32⟩
  | 11 => ⟨S8, .i32⟩
  | 12 => ⟨S_, .i32⟩
  | 13 => ⟨S8, .i32⟩
  | 14 => ⟨S8, .i1⟩
  | 15 => ⟨S8, .i32⟩
  | 16 => ⟨S_, .i32⟩
  | 17 => ⟨S_, .i32⟩
  | 18 => ⟨S8, .i32⟩
  | 19 => ⟨S8, .i32⟩
  | 20 => ⟨S_, .i32⟩
  | 21 => ⟨S8, .i32⟩
  | 22 => ⟨S8, .i32⟩
  | 23 => ⟨S8, .i32⟩
  | 24 => ⟨S8, .i32⟩
  | 25 => ⟨S_, .i32⟩
  | 26 => ⟨S8, .i32⟩
  | 27 => ⟨S8, .i1⟩
  | 28 => ⟨S8, .i32⟩
  | 29 => ⟨S_, .i32⟩
  | 30 => ⟨S_, .i32⟩
  | 31 => ⟨S8, .i32⟩
  | 32 => ⟨S8, .i32⟩
  | 33 => ⟨S_, .i32⟩
  | 34 => ⟨S8, .i32⟩
  | 35 => ⟨S8, .i32⟩
  | 36 => ⟨S8, .i32⟩
  | 37 => ⟨S8, .i32⟩
  | 38 => ⟨S_, .i32⟩
  | 39 => ⟨S8, .i32⟩
  | 40 => ⟨S8, .i1⟩
  | 41 => ⟨S8, .i32⟩
  | 42 => ⟨S_, .i32⟩
  | 43 => ⟨S_, .i32⟩
  | 44 => ⟨S8, .i32⟩
  | 45 => ⟨S8, .i32⟩
  | 46 => ⟨S_, .i32⟩
  | 47 => ⟨S8, .i32⟩
  | 48 => ⟨S8, .i32⟩
  | 49 => ⟨S8, .i32⟩
  | 50 => ⟨S8, .i32⟩
  | 51 => ⟨S_, .i32⟩
  | 52 => ⟨S8, .i32⟩
  | 53 => ⟨S8, .i1⟩
  | 54 => ⟨S8, .i32⟩
  | 55 => ⟨S_, .i32⟩
  | 56 => ⟨S_, .i32⟩
  | 57 => ⟨S8, .i32⟩
  | 58 => ⟨S8, .i32⟩
  | 59 => ⟨S_, .i32⟩
  | 60 => ⟨S8, .i32⟩
  | 61 => ⟨S8, .i32⟩
  | 62 => ⟨S8, .i32⟩
  | 63 => ⟨S8, .i32⟩
  | 64 => ⟨S_, .i32⟩
  | 65 => ⟨S8, .i32⟩
  | 66 => ⟨S8, .i1⟩
  | 67 => ⟨S8, .i32⟩
  | 68 => ⟨S_, .i32⟩
  | 69 => ⟨S_, .i32⟩
  | 70 => ⟨S8, .i32⟩
  | 71 => ⟨S8, .i32⟩
  | 72 => ⟨S256x256x3x8, .i32⟩
  | 73 => ⟨S1x1x1x8, .i32⟩
  | 74 => ⟨S256x256x3x8, .i32⟩
  | 75 => ⟨S256x256x3x8, .i32⟩
  | 76 => ⟨S_, .i32⟩
  | 77 => ⟨S256x256x3, .i32⟩
  | 78 => ⟨S3x256x256, .i32⟩
  | 79 => ⟨S3x256x256, .f32⟩
  | 80 => ⟨S3x256x256, .f32⟩
  | _ => ⟨S3x256x256, .f32⟩

abbrev hbmTy (i : Nat) : BufTy := match i / 128 with
  | 0 => hbmTy0_0 i
  | 1 => hbmTy0_1 i
  | _ => ⟨S3x256x256, .f32⟩

abbrev bufTy : (tb : Table) → Fin (tcTables nBuf tb) → BufTy
  | .hbm, ⟨i, _⟩ => hbmTy i
  | _, _ => ⟨S3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_12 : Ref sig .tc := ⟨.hbm, 100, rfl⟩
abbrev main_v79 : Ref sig .tc := ⟨.hbm, 101, rfl⟩
abbrev main_v80 : Ref sig .tc := ⟨.hbm, 102, rfl⟩
abbrev main_c_13 : Ref sig .tc := ⟨.hbm, 103, rfl⟩
abbrev main_v81 : Ref sig .tc := ⟨.hbm, 104, rfl⟩
abbrev main_v82 : Ref sig .tc := ⟨.hbm, 105, rfl⟩
abbrev main_c_14 : Ref sig .tc := ⟨.hbm, 106, rfl⟩
abbrev main_c_15 : Ref sig .tc := ⟨.hbm, 107, rfl⟩
abbrev main_v83 : Ref sig .tc := ⟨.hbm, 108, rfl⟩
abbrev main_c_16 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_17 : Ref sig .tc := ⟨.hbm, 114, rfl⟩
abbrev main_c_18 : Ref sig .tc := ⟨.hbm, 115, rfl⟩
abbrev main_call0_v0 : Ref sig .tc := ⟨.hbm, 116, rfl⟩
abbrev main_call0_v1 : Ref sig .tc := ⟨.hbm, 117, rfl⟩
abbrev main_v88 : Ref sig .tc := ⟨.hbm, 118, rfl⟩
abbrev main_c_19 : Ref sig .tc := ⟨.hbm, 119, rfl⟩
abbrev main_v89 : Ref sig .tc := ⟨.hbm, 120, rfl⟩
abbrev main_v90 : Ref sig .tc := ⟨.hbm, 121, rfl⟩
abbrev main_c_20 : Ref sig .tc := ⟨.hbm, 122, rfl⟩
abbrev main_v91 : Ref sig .tc := ⟨.hbm, 123, rfl⟩
abbrev main_v92 : Ref sig .tc := ⟨.hbm, 124, rfl⟩
abbrev main_call1_c : Ref sig .tc := ⟨.hbm, 125, rfl⟩
abbrev main_call1_v0 : Ref sig .tc := ⟨.hbm, 126, rfl⟩
abbrev main_call1_v1 : Ref sig .tc := ⟨.hbm, 127, rfl⟩
abbrev main_v93 : Ref sig .tc := ⟨.hbm, 128, rfl⟩
abbrev main_c_21 : Ref sig .tc := ⟨.hbm, 129, rfl⟩
abbrev main_c_22 : Ref sig .tc := ⟨.hbm, 130, rfl⟩
abbrev main_v94 : Ref sig .tc := ⟨.hbm, 131, rfl⟩
abbrev main_c_23 : Ref sig .tc := ⟨.hbm, 132, rfl⟩
abbrev main_v95 : Ref sig .tc := ⟨.hbm, 133, rfl⟩
abbrev main_v96 : Ref sig .tc := ⟨.hbm, 134, rfl⟩
abbrev main_c_24 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_call2_c : Ref sig .tc := ⟨.hbm, 140, rfl⟩
abbrev main_call2_v0 : Ref sig .tc := ⟨.hbm, 141, rfl⟩
abbrev main_call2_v1 : Ref sig .tc := ⟨.hbm, 142, rfl⟩
abbrev main_v101 : Ref sig .tc := ⟨.hbm, 143, rfl⟩
abbrev main_v102 : Ref sig .tc := ⟨.hbm, 144, rfl⟩
abbrev main_c_25 : Ref sig .tc := ⟨.hbm, 145, rfl⟩
abbrev main_v103 : Ref sig .tc := ⟨.hbm, 146, rfl⟩
abbrev main_v104 : Ref sig .tc := ⟨.hbm, 147, rfl⟩
abbrev main_c_26 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_call3_c : Ref sig .tc := ⟨.hbm, 153, rfl⟩
abbrev main_call3_v0 : Ref sig .tc := ⟨.hbm, 154, rfl⟩
abbrev main_call3_v1 : Ref sig .tc := ⟨.hbm, 155, rfl⟩
abbrev main_v109 : Ref sig .tc := ⟨.hbm, 156, rfl⟩
abbrev main_v110 : Ref sig .tc := ⟨.hbm, 157, rfl⟩
abbrev main_c_27 : Ref sig .tc := ⟨.hbm, 158, rfl⟩
abbrev main_v111 : Ref sig .tc := ⟨.hbm, 159, rfl⟩
abbrev main_v112 : Ref sig .tc := ⟨.hbm, 160, rfl⟩
abbrev main_c_28 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_call4_c : Ref sig .tc := ⟨.hbm, 166, rfl⟩
abbrev main_call4_v0 : Ref sig .tc := ⟨.hbm, 167, rfl⟩
abbrev main_call4_v1 : Ref sig .tc := ⟨.hbm, 168, rfl⟩
abbrev main_v117 : Ref sig .tc := ⟨.hbm, 169, rfl⟩
abbrev main_v118 : Ref sig .tc := ⟨.hbm, 170, rfl⟩
abbrev main_c_29 : Ref sig .tc := ⟨.hbm, 171, rfl⟩
abbrev main_v119 : Ref sig .tc := ⟨.hbm, 172, rfl⟩
abbrev main_v120 : Ref sig .tc := ⟨.hbm, 173, rfl⟩
abbrev main_c_30 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_call5_c : Ref sig .tc := ⟨.hbm, 179, rfl⟩
abbrev main_call5_v0 : Ref sig .tc := ⟨.hbm, 180, rfl⟩
abbrev main_call5_v1 : Ref sig .tc := ⟨.hbm, 181, rfl⟩
abbrev main_v125 : Ref sig .tc := ⟨.hbm, 182, rfl⟩
abbrev main_v126 : Ref sig .tc := ⟨.hbm, 183, rfl⟩
abbrev main_c_31 : Ref sig .tc := ⟨.hbm, 184, rfl⟩
abbrev main_v127 : Ref sig .tc := ⟨.hbm, 185, rfl⟩
abbrev main_v128 : Ref sig .tc := ⟨.hbm, 186, rfl⟩
abbrev main_c_32 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_call6_c : Ref sig .tc := ⟨.hbm, 192, rfl⟩
abbrev main_call6_v0 : Ref sig .tc := ⟨.hbm, 193, rfl⟩
abbrev main_call6_v1 : Ref sig .tc := ⟨.hbm, 194, rfl⟩
abbrev main_v133 : Ref sig .tc := ⟨.hbm, 195, rfl⟩
abbrev main_v134 : Ref sig .tc := ⟨.hbm, 196, rfl⟩
abbrev main_c_33 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_c_34 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S_S8 : S_.BroadcastsInDim S8 (![] : Fin 0 → Fin S8.rank)
  bcast_S8_S1x8_1 : S8.BroadcastsInDim S1x8 (![1] : Fin 1 → Fin S1x8.rank)
  bcast_S256x1_S256x8_0_1 : S256x1.BroadcastsInDim S256x8 (![0, 1] : Fin 2 → Fin S256x8.rank)
  bcast_S1x8_S256x8_0_1 : S1x8.BroadcastsInDim S256x8 (![0, 1] : Fin 2 → Fin S256x8.rank)
  bcast_S_S256x8 : S_.BroadcastsInDim S256x8 (![] : Fin 0 → Fin S256x8.rank)
  bcast_S256x8_S256x1x8_0_2 : S256x8.BroadcastsInDim S256x1x8 (![0, 2] : Fin 2 → Fin S256x1x8.rank)
  bcast_S256x1x8_S256x256x8_0_1_2 : S256x1x8.BroadcastsInDim S256x256x8 (![0, 1, 2] : Fin 3 → Fin S256x256x8.rank)
  bcast_S256x8_S1x256x8_1_2 : S256x8.BroadcastsInDim S1x256x8 (![1, 2] : Fin 2 → Fin S1x256x8.rank)
  bcast_S1x256x8_S256x256x8_0_1_2 : S1x256x8.BroadcastsInDim S256x256x8 (![0, 1, 2] : Fin 3 → Fin S256x256x8.rank)
  concatenates_S256x256x8_S256x256x8_S256x256x16_d2 : Shape.Concatenates [S256x256x8, S256x256x8] S256x256x16 2
  shapeCasts_S256x256x16_S65536x16 : S256x256x16.ShapeCasts S65536x16
  bcast_S_S65536x16 : S_.BroadcastsInDim S65536x16 (![] : Fin 0 → Fin S65536x16.rank)
  bcast_S_S16x1024 : S_.BroadcastsInDim S16x1024 (![] : Fin 0 → Fin S16x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  bcast_S_S1024x1024 : S_.BroadcastsInDim S1024x1024 (![] : Fin 0 → Fin S1024x1024.rank)
  bcast_S_S1024x24 : S_.BroadcastsInDim S1024x24 (![] : Fin 0 → Fin S1024x24.rank)
  bcast_S24_S1x24_1 : S24.BroadcastsInDim S1x24 (![1] : Fin 1 → Fin S1x24.rank)
  bcast_S1x24_S65536x24_0_1 : S1x24.BroadcastsInDim S65536x24 (![0, 1] : Fin 2 → Fin S65536x24.rank)
  shapeCasts_S65536x24_S256x256x3x8 : S65536x24.ShapeCasts S256x256x3x8
  natLt_1_32 : 1 < 32
  bcast_S8_S1x1x1x8_3 : S8.BroadcastsInDim S1x1x1x8 (![3] : Fin 1 → Fin S1x1x1x8.rank)
  bcast_S1x1x1x8_S256x256x3x8_0_1_2_3 : S1x1x1x8.BroadcastsInDim S256x256x3x8 (![0, 1, 2, 3] : Fin 4 → Fin S256x256x3x8.rank)
  reducesTo_S256x256x3x8_S256x256x3_d3 : S256x256x3x8.ReducesTo [3] S256x256x3
  h_S_ : 0 < S_.numel
  transposes_S256x256x3_S3x256x256_2_0_1 : S256x256x3.Transposes [2, 0, 1] S3x256x256
  dot_S65536x16_S16x1024_S65536x1024_1_0_0_1_n_n_wf : DotDims.WF S65536x16 S16x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x24_S65536x24_1_0_0_1_n_n_wf : DotDims.WF S65536x1024 S1024x24 S65536x24 [1] [0] [0] [1] [] []

variable [Facts₀]

def dot_S65536x16_S16x1024_S65536x1024_1_0_0_1_n_n : DotDims S65536x16 S16x1024 S65536x1024 where
  lhsContracting := [1]
  rhsContracting := [0]
  lhsNonContracting := [0]
  rhsNonContracting := [1]
  lhsBatch := []
  rhsBatch := []
  wf := dot_S65536x16_S16x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x24_S65536x24_1_0_0_1_n_n : DotDims S65536x1024 S1024x24 S65536x24 where
  lhsContracting := [1]
  rhsContracting := [0]
  lhsNonContracting := [0]
  rhsNonContracting := [1]
  lhsBatch := []
  rhsBatch := []
  wf := dot_S65536x1024_S1024x24_S65536x24_1_0_0_1_n_n_wf

class Facts : Prop extends Facts₀ where

variable [Facts]
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.LibXnorFold.lean ====
/-
  The agreement count of a binary layer against its threshold, in two spellings, on the extended reals.
  For one-bit words x_k, m_k (k < D), read as the numbers 0 and 1, and a 32-bit threshold τ read signed, the number
  of positions where x and m agree is  Σ_k x_k·m_k + Σ_k (1 − x_k)·(1 − m_k).  Term by term
      x·m + (1 − x)·(1 − m) = x·(2·m − 1) + (1 − m),
  so the count is  Σ_k x_k·(2·m_k − 1) + D − Σ_k m_k, and it exceeds τ exactly when  Σ_k x_k·(2·m_k − 1)  exceeds
  (τ − D) + (0 + Σ_k m_k).  Every quantity is a real number, so the comparison on the extended reals is the
  comparison of reals; the identity is linear and needs nothing of the bits beyond their being numbers.
  `coe_sum`: the inclusion of the reals in the extended reals carries a finite sum to the sum of the inclusions.
-/
import Idealize.ShloMosaic.PureOps.Ideal

noncomputable section

namespace Cert.LibXnorFold

open Idealize.ShloMosaic

/-- The inclusion of the reals carries a finite sum to the sum of the inclusions. -/
theorem coe_sum {ι : Type} (s : Finset ι) (f : ι → ℝ) : ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- The real identity: the agreement count is the signed product sum plus D minus the number of ones of m. -/
theorem agree_eq {D : ℕ} (X M : Fin D → ℝ) :
    (∑ k, X k * M k) + ∑ k, (1 - X k) * (1 - M k) = (∑ k, X k * (2 * M k - 1)) + (D : ℝ) - ∑ k, M k := by
  have h : ∀ k, X k * M k + (1 - X k) * (1 - M k) = X k * (2 * M k - 1) + (1 - M k) := fun k => by ring
  rw [← Finset.sum_add_distrib, Finset.sum_congr rfl (fun k _ => h k), Finset.sum_add_distrib, Finset.sum_sub_distrib]
  simp only [Finset.sum_const, Finset.card_univ, Fintype.card_fin, nsmul_eq_mul, mul_one]
  ring

/-- The two comparisons give one bit: the product sum against the folded threshold, and the agreement count against
    the threshold itself. The literals enter as the reals they denote. -/
theorem folded_gt_eq {D : ℕ} (x m : Fin D → BitVec 1) (τ : BitVec 32) (one two zero dlit : EReal)
    (h1 : one = ((1 : ℝ) : EReal)) (h2 : two = ((2 : ℝ) : EReal)) (h0 : zero = ((0 : ℝ) : EReal))
    (hd : dlit = ((D : ℝ) : EReal)) :
    Ideal.cmp .ogt (∑ k, (((x k).toNat : ℝ) : EReal) * (two * (((m k).toNat : ℝ) : EReal) - one))
        (((((τ.toInt : ℝ) : EReal)) - dlit) + (zero + ∑ k, (((m k).toNat : ℝ) : EReal)))
      = Ideal.cmp .ogt ((∑ k, (((x k).toNat : ℝ) : EReal) * (((m k).toNat : ℝ) : EReal))
          + ∑ k, (one - (((x k).toNat : ℝ) : EReal)) * (one - (((m k).toNat : ℝ) : EReal)))
        ((τ.toInt : ℝ) : EReal) := by
  subst h1 h2 h0 hd
  simp only [← EReal.coe_mul, ← EReal.coe_sub, ← coe_sum, ← EReal.coe_add]
  simp only [Ideal.cmp, EReal.coe_lt_coe_iff]
  have key := agree_eq (fun k => ((x k).toNat : ℝ)) (fun k => ((m k).toNat : ℝ))
  refine congrArg BitVec.ofBool (decide_eq_decide.mpr ⟨fun h => ?_, fun h => ?_⟩)
  · linarith
  · linarith

end Cert.LibXnorFold

end
-- ==== Proof.Consts.lean ====
/-
  The float literal words of the two programs, as the real numbers they denote: the powers of two 1, 2, 4, …, 128
  (the weights of a byte's eight bits, most significant first), 16 and 1024 (the layers' input widths), and 0.
  Each is a normal binary32 pattern with a zero fraction: sign 0, exponent field E, value 2^(E − 127).
-/
import Idealize.ShloMosaic.PureOps.Ideal
import Idealize.ShloMosaic.PureOps.Ideal.Laws

noncomputable section

namespace Cert.Consts

open Idealize.ShloMosaic

theorem w0 : Ideal.ofBits .f32 0x00000000#32 = ((0 : ℝ) : EReal) := by
  rw [Ideal.ofBits_zero_f32]; rfl
theorem w1 : Ideal.ofBits .f32 0x3F800000#32 = ((1 : ℝ) : EReal) := by
  simp [Ideal.ofBits, Ideal.ieee, -EReal.coe_mul]; norm_num
theorem w2 : Ideal.ofBits .f32 0x40000000#32 = ((2 : ℝ) : EReal) := by
  simp [Ideal.ofBits, Ideal.ieee, -EReal.coe_mul]; norm_num
theorem w4 : Ideal.ofBits .f32 0x40800000#32 = ((4 : ℝ) : EReal) := by
  simp [Ideal.ofBits, Ideal.ieee, -EReal.coe_mul]; norm_num
theorem w8 : Ideal.ofBits .f32 0x41000000#32 = ((8 : ℝ) : EReal) := by
  simp [Ideal.ofBits, Ideal.ieee, -EReal.coe_mul]; norm_num
theorem w16 : Ideal.ofBits .f32 0x41800000#32 = ((16 : ℝ) : EReal) := by
  simp [Ideal.ofBits, Ideal.ieee, -EReal.coe_mul]; norm_num
theorem w32 : Ideal.ofBits .f32 0x42000000#32 = ((32 : ℝ) : EReal) := by
  simp [Ideal.ofBits, Ideal.ieee, -EReal.coe_mul]; norm_num
theorem w64 : Ideal.ofBits .f32 0x42800000#32 = ((64 : ℝ) : EReal) := by
  simp [Ideal.ofBits, Ideal.ieee, -EReal.coe_mul]; norm_num
theorem w128 : Ideal.ofBits .f32 0x43000000#32 = ((128 : ℝ) : EReal) := by
  simp [Ideal.ofBits, Ideal.ieee, -EReal.coe_mul]; norm_num
theorem w1024 : Ideal.ofBits .f32 0x44800000#32 = ((1024 : ℝ) : EReal) := by
  simp [Ideal.ofBits, Ideal.ieee, -EReal.coe_mul]; norm_num

end Cert.Consts

end
-- ==== Proof.LibXnorStage.lean ====
/-
  One layer of a binary (XNOR-popcount) network, on the extended reals, as a matrix unit computes it.
  The layer's bit at output o for an input row x is   agreeBit x m τ = [ Σ_k x_k·m_k + Σ_k (1 − x_k)·(1 − m_k) > τ ],
  the count of positions where the input row and the mask column agree, against the threshold.
  * kernel_stage: a product over the plain N×D by D×O dimension numbers into a zero accumulator, of an array whose row a
    holds the bits x_k as numbers with an array whose column o holds 2·m_k − 1, compared (greater than) with a one-row
    array spread over the rows whose entry o is (τ − D) + (0 + Σ_k m_k), is that bit.
  * layer_from_bits: the same when the input array is the previous layer's bit array read as numbers.
  * bit_as_float: a comparison bit widened to 32 bits, converted as a signed integer and narrowed to a 16-bit float
    format reads, at every index, the bit as the number 0 or 1.
  * kernel_pack: the product of a 3×24 weight array with the transposed N×24 array of such numbers, converted to a
    32-bit integer, reads at (c, r) the conversion of Σ_j w(c, j)·bit(r, j).
  Every extent but the 3×24 of the weights is a variable.
-/
import Idealize.ShloMosaic.PureOps.Ideal.Laws
import Idealize.ShloMosaic.Lib.ValueIdx
import Idealize.ShloMosaic.Lib.Pipeline.Value
import proofs.«107590_j11020886082300_2_alg».proof.Proof.LibPlainDot
import proofs.«107590_j11020886082300_2_alg».proof.Proof.LibSpellings
import proofs.«107590_j11020886082300_2_alg».proof.Proof.LibXnorFold
import proofs.«107590_j11020886082300_2_alg».proof.Proof.Consts

noncomputable section

namespace Cert.LibXnorStage

open Idealize.ShloMosaic Idealize.ShloMosaic.ValueIdx

/-- The layer's bit: the agreement count of the row x with the mask column m exceeds the threshold τ. The number one is
    written as its binary32 word, as both programs write it. -/
def agreeBit {D : ℕ} (x m : Fin D → BitVec 1) (τ : BitVec 32) : BitVec 1 :=
  Ideal.cmp .ogt
    ((∑ k, (((x k).toNat : ℝ) : EReal) * (((m k).toNat : ℝ) : EReal))
      + ∑ k, (Ideal.ofBits .f32 0x3F800000#32 - (((x k).toNat : ℝ) : EReal))
          * (Ideal.ofBits .f32 0x3F800000#32 - (((m k).toNat : ℝ) : EReal)))
    ((τ.toInt : ℝ) : EReal)

/-- A one-row array spread over N rows reads, at (a, c), the row's entry c. -/
theorem row_broadcastTo {α : Type} (N O : ℕ) (b : (⟨2, ![1, O]⟩ : Shape).Idx → α)
    (hb : (⟨2, ![1, O]⟩ : Shape).Broadcasts ⟨2, ![N, O]⟩) (a : Fin N) (c : Fin O) :
    broadcastTo ⟨2, ![N, O]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if O = 1 then 0 else c.val
      split
      · have := c.isLt; omega
      · rfl

/-- The matrix unit's spelling of a layer, at row a and output o. -/
theorem kernel_stage (N D O : ℕ) {φx : FTy} (xin : FVec Ideal ⟨2, ![N, D]⟩ φx) (mp : FVec Ideal ⟨2, ![D, O]⟩ .bf16)
    (thrp : FVec Ideal ⟨2, ![1, O]⟩ .f32) (hb : (⟨2, ![1, O]⟩ : Shape).Broadcasts ⟨2, ![N, O]⟩)
    (a : Fin N) (o : Fin O) (x m : Fin D → BitVec 1) (τ : BitVec 32) (dlit : EReal) (hd : dlit = ((D : ℝ) : EReal))
    (hx : ∀ k, xin (ix2 a k) = (((x k).toNat : ℝ) : EReal))
    (hm : ∀ k, mp (ix2 k o)
      = Ideal.ofBits .f32 0x40000000#32 * (((m k).toNat : ℝ) : EReal) - Ideal.ofBits .f32 0x3F800000#32)
    (ht : thrp (ix2 (0 : Fin 1) o)
      = ((((τ.toInt : ℝ) : EReal)) - dlit) + (Ideal.ofBits .f32 0x00000000#32 + ∑ k, (((m k).toNat : ℝ) : EReal))) :
    cmpf .ogt (matmul (F := Ideal) (DotDims.plain N D O) none xin mp (constant ⟨2, ![N, O]⟩ .f32 0x00000000#32))
        (broadcastTo ⟨2, ![N, O]⟩ thrp hb) (ix2 a o)
      = agreeBit x m τ := by
  show Ideal.cmp .ogt
      (matmul (F := Ideal) (DotDims.plain N D O) none xin mp (constant ⟨2, ![N, O]⟩ .f32 0x00000000#32) (ix2 a o))
      (broadcastTo ⟨2, ![N, O]⟩ thrp hb (ix2 a o)) = _
  rw [Cert.LibPlainDot.matmul_plain, row_broadcastTo, ht]
  show Ideal.cmp .ogt (∑ k : Fin D, xin (ix2 a k) * mp (ix2 k o)) _ = _
  simp only [hx, hm]
  exact Cert.LibXnorFold.folded_gt_eq x m τ _ _ _ _ Cert.Consts.w1 Cert.Consts.w2 Cert.Consts.w0 hd

/-- A bit widened, converted as a signed integer and narrowed reads as the number 0 or 1. -/
theorem bit_as_float {s : Shape} (v : IVec s 1) (h32 : 1 < 32) (hb : FTy.bf16.bits < FTy.f32.bits) (i : s.Idx) :
    truncf .bf16 (sitofp (F := Ideal) .f32 (extui 32 v h32)) hb i = (((v i).toNat : ℝ) : EReal) :=
  Cert.LibSpellings.sitofp_setWidth_bit .f32 (v i)

/-- A layer fed by the previous layer's bit array. -/
theorem layer_from_bits (N D O : ℕ) (v : IVec ⟨2, ![N, D]⟩ 1) (mp : FVec Ideal ⟨2, ![D, O]⟩ .bf16)
    (thrp : FVec Ideal ⟨2, ![1, O]⟩ .f32) (h32 : 1 < 32) (hbf : FTy.bf16.bits < FTy.f32.bits)
    (hb : (⟨2, ![1, O]⟩ : Shape).Broadcasts ⟨2, ![N, O]⟩)
    (a : Fin N) (o : Fin O) (x m : Fin D → BitVec 1) (τ : BitVec 32) (dlit : EReal) (hd : dlit = ((D : ℝ) : EReal))
    (hv : ∀ k, v (ix2 a k) = x k)
    (hm : ∀ k, mp (ix2 k o)
      = Ideal.ofBits .f32 0x40000000#32 * (((m k).toNat : ℝ) : EReal) - Ideal.ofBits .f32 0x3F800000#32)
    (ht : thrp (ix2 (0 : Fin 1) o)
      = ((((τ.toInt : ℝ) : EReal)) - dlit) + (Ideal.ofBits .f32 0x00000000#32 + ∑ k, (((m k).toNat : ℝ) : EReal))) :
    cmpf .ogt (matmul (F := Ideal) (DotDims.plain N D O) none
          (truncf .bf16 (sitofp (F := Ideal) .f32 (extui 32 v h32)) hbf) mp (constant ⟨2, ![N, O]⟩ .f32 0x00000000#32))
        (broadcastTo ⟨2, ![N, O]⟩ thrp hb) (ix2 a o)
      = agreeBit x m τ :=
  kernel_stage N D O _ mp thrp hb a o x m τ dlit hd
    (fun k => (bit_as_float v h32 hbf (ix2 a k)).trans (by rw [hv k])) hm ht

/-- The transposed N×24 array of bit numbers reads, at (j, r), bit (r, j). -/
theorem bits_transposed (N : ℕ) (v : IVec ⟨2, ![N, 24]⟩ 1) (h32 : 1 < 32) (hb : FTy.bf16.bits < FTy.f32.bits)
    (htr : (⟨2, ![N, 24]⟩ : Shape).Transposes [1, 0] ⟨2, ![24, N]⟩) (j : Fin 24) (r : Fin N) :
    truncf .bf16 (transpose ⟨2, ![24, N]⟩ [1, 0] (sitofp (F := Ideal) .f32 (extui 32 v h32)) htr) hb (ix2 j r)
      = (((v (ix2 r j)).toNat : ℝ) : EReal) := by
  show transpose ⟨2, ![24, N]⟩ [1, 0] (sitofp (F := Ideal) .f32 (extui 32 v h32)) htr (ix2 j r) = _
  rw [transpose_apply [1, 0] _ htr (ix2 j r) (ix2 r j) (fun b => by match b with | ⟨0, _⟩ => rfl | ⟨1, _⟩ => rfl)]
  exact Cert.LibSpellings.sitofp_setWidth_bit .f32 (v (ix2 r j))

/-- The packing product, converted to an integer, at channel c and row r. -/
theorem kernel_pack (N : ℕ) (w : FVec Ideal ⟨2, ![3, 24]⟩ .bf16) (v : IVec ⟨2, ![N, 24]⟩ 1) (h32 : 1 < 32)
    (hb : FTy.bf16.bits < FTy.f32.bits) (htr : (⟨2, ![N, 24]⟩ : Shape).Transposes [1, 0] ⟨2, ![24, N]⟩)
    (c : Fin 3) (r : Fin N) :
    fptosi 32 (matmul (F := Ideal) (DotDims.plain 3 24 N) none w
        (truncf .bf16 (transpose ⟨2, ![24, N]⟩ [1, 0] (sitofp (F := Ideal) .f32 (extui 32 v h32)) htr) hb)
        (constant ⟨2, ![3, N]⟩ .f32 0x00000000#32)) (ix2 c r)
      = Ideal.fptosi 32 (∑ j : Fin 24, w (ix2 c j) * (((v (ix2 r j)).toNat : ℝ) : EReal)) := by
  show Ideal.fptosi 32 (matmul (F := Ideal) (DotDims.plain 3 24 N) none w _ (constant ⟨2, ![3, N]⟩ .f32 0x00000000#32) (ix2 c r)) = _
  rw [Cert.LibPlainDot.matmul_plain]
  refine congrArg (Ideal.fptosi 32) (Finset.sum_congr rfl fun j _ => ?_)
  exact congrArg (fun z : EReal => w (ix2 c j) * z) (bits_transposed N v h32 hb htr j r)

end Cert.LibXnorStage

end
-- ==== Proof.LibBitPack.lean ====
/-
  Packing eight bits, most significant first, into an integer — as a float product and as an integer sum.
  For bits β_0 … β_7 the byte is  byteVal β = Σ_b β_b · 2^(7 − b)  (a natural number below 256).
  * weighted_sum: with the 3×24 weight table  w(c, j) = 2^(7 − j mod 8) if j div 8 = c, else 0,  the sum over the 24
    columns Σ_j w(c, j)·B_j keeps only the eight columns 8c … 8c + 7 of channel c: it is Σ_b 2^(7 − b)·B_{8c + b}.
  * fptosi_natCast: converting the real number n (a natural below 2^31) to a 32-bit signed integer gives the word n.
  * float_pack: hence the conversion of Σ_j w(c, j)·β_j (the bits as numbers) is the word byteVal (β_{8c + ·}).
  * fold_pack: the integer sum, from 0, of the bits widened to 32 bits times the words 2^(7 − b) is the same word.
-/
import Idealize.ShloMosaic.PureOps.Ideal
import Idealize.ShloMosaic.PureOps.Reduce
import Mathlib.Data.BitVec

noncomputable section

namespace Cert.LibBitPack

open Idealize.ShloMosaic

/-- The byte spelt by eight bits, most significant first. -/
def byteVal (β : Fin 8 → BitVec 1) : ℕ := ∑ b : Fin 8, (β b).toNat * 2 ^ (7 - b.val)

theorem bit_le_one (x : BitVec 1) : x.toNat ≤ 1 := by have := x.isLt; omega

theorem byteVal_lt (β : Fin 8 → BitVec 1) : byteVal β < 256 := by
  unfold byteVal
  have h := fun b => bit_le_one (β b)
  have h0 := h 0; have h1 := h 1; have h2 := h 2; have h3 := h 3
  have h4 := h 4; have h5 := h 5; have h6 := h 6; have h7 := h 7
  simp only [Fin.sum_univ_eight]
  norm_num
  omega

/-- Column 8c + b of the 24: bit b of channel c. -/
def col (c : Fin 3) (b : Fin 8) : Fin 24 := ⟨8 * c.val + b.val, by have := c.isLt; have := b.isLt; omega⟩

/-- The weight table as real numbers. -/
def wtab (c : Fin 3) (j : Fin 24) : ℝ := if j.val / 8 = c.val then (2 : ℝ) ^ (7 - j.val % 8) else 0

theorem weighted_sum (c : Fin 3) (B : Fin 24 → ℝ) :
    ∑ j : Fin 24, wtab c j * B j = ∑ b : Fin 8, (2 : ℝ) ^ (7 - b.val) * B (col c b) := by
  rw [← Equiv.sum_comp (finProdFinEquiv : Fin 3 × Fin 8 ≃ Fin 24), Fintype.sum_prod_type, Finset.sum_eq_single c]
  · refine Finset.sum_congr rfl fun b _ => ?_
    have h1 : ((finProdFinEquiv (c, b) : Fin 24)).val = b.val + 8 * c.val := rfl
    have h2 : (finProdFinEquiv (c, b) : Fin 24) = col c b := Fin.ext (by rw [h1]; show _ = 8 * c.val + b.val; omega)
    rw [h2]
    unfold wtab
    have hb := b.isLt
    have e1 : (col c b).val / 8 = c.val := by show (8 * c.val + b.val) / 8 = c.val; omega
    have e2 : (col c b).val % 8 = b.val := by show (8 * c.val + b.val) % 8 = b.val; omega
    rw [if_pos e1, e2]
  · intro c' _ hc'
    refine Finset.sum_eq_zero fun b _ => ?_
    have h1 : ((finProdFinEquiv (c', b) : Fin 24)).val = b.val + 8 * c'.val := rfl
    unfold wtab
    have hb := b.isLt
    rw [h1, if_neg (by intro h; apply hc'; apply Fin.ext; omega), zero_mul]
  · intro h; exact absurd (Finset.mem_univ c) h

/-- The real number n, a natural below 2^31, converts to the 32-bit word n. -/
theorem fptosi_natCast (n : ℕ) (h : n < 2 ^ 31) : Ideal.fptosi 32 (((n : ℝ)) : EReal) = BitVec.ofNat 32 n := by
  unfold Ideal.fptosi
  rw [Ideal.toIntClamped_coe, if_pos (Nat.cast_nonneg n), Int.floor_natCast]
  have hp : (((2 ^ (32 - 1) : ℕ)) : ℤ) = 2147483648 := by norm_num
  have h' : (n : ℤ) < 2147483648 := by have : n < 2147483648 := by simpa using h
                                       exact_mod_cast this
  have hn : (0 : ℤ) ≤ (n : ℤ) := Int.natCast_nonneg n
  rw [hp, min_eq_right (by omega), max_eq_right (by omega)]
  exact BitVec.ofInt_natCast 32 n

/-- The weighted sum of the bits as numbers is the byte, as a real number. -/
theorem byte_sum (β : Fin 8 → BitVec 1) :
    ∑ b : Fin 8, (2 : ℝ) ^ (7 - b.val) * ((β b).toNat : ℝ) = ((byteVal β : ℕ) : ℝ) := by
  unfold byteVal
  push_cast
  exact Finset.sum_congr rfl fun b _ => by ring

/-- The float spelling: the conversion of Σ_j w(c, j)·β_j is the byte of channel c's eight bits. -/
theorem float_pack (c : Fin 3) (β : Fin 24 → BitVec 1) :
    Ideal.fptosi 32 (((∑ j : Fin 24, wtab c j * ((β j).toNat : ℝ) : ℝ)) : EReal)
      = BitVec.ofNat 32 (byteVal fun b => β (col c b)) := by
  rw [weighted_sum c (fun j => ((β j).toNat : ℝ)), byte_sum (fun b => β (col c b))]
  exact fptosi_natCast _ (lt_trans (byteVal_lt _) (by norm_num))

/-- The integer spelling: the sum from 0 of the widened bits times the words 2^(7 − b). -/
theorem fold_pack (β : Fin 8 → BitVec 1) (W : Fin 8 → BitVec 32) (hW : ∀ b, W b = BitVec.ofNat 32 (2 ^ (7 - b.val))) :
    (Finset.univ : Finset (Fin 8)).fold IntOp.addi 0#32 (fun b => IntOp.muli ((β b).setWidth 32) (W b))
      = BitVec.ofNat 32 (byteVal β) := by
  have hs : (Finset.univ : Finset (Fin 8)).fold IntOp.addi 0#32 (fun b => IntOp.muli ((β b).setWidth 32) (W b))
      = ∑ b : Fin 8, (β b).setWidth 32 * W b := (Finset.sum_eq_fold _ _).symm
  rw [hs]
  unfold byteVal
  rw [← BitVec.natCast_eq_ofNat]
  push_cast
  refine Finset.sum_congr rfl fun b _ => ?_
  rw [hW b, ← BitVec.ofNat_toNat, ← BitVec.natCast_eq_ofNat, ← BitVec.natCast_eq_ofNat]
  push_cast
  rfl

end Cert.LibBitPack

end
-- ==== Proof.Spec.lean ====
/-
  What the two programs compute, as one function of the argument arrays.
  A pixel's sixteen position bits p go through three binary layers — layer ℓ's output bit o is the agreement bit of its
  input row with column o of mask ℓ against threshold ℓ — to twenty-four bits; channel c of the pixel is the byte spelt
  by bits 8c … 8c + 7, most significant first.
-/
import proofs.«107590_j11020886082300_2_alg».proof.Proof.LibXnorStage
import proofs.«107590_j11020886082300_2_alg».proof.Proof.LibBitPack
import Idealize.ShloMosaic.Lib.ValueIdx

noncomputable section

namespace Cert.Spec

open Idealize.ShloMosaic Idealize.ShloMosaic.ValueIdx Cert.LibXnorStage Cert.LibBitPack

variable (m0 : Fin 16 → Fin 1024 → BitVec 1) (τ0 : Fin 1024 → BitVec 32)
  (m1 : Fin 1024 → Fin 1024 → BitVec 1) (τ1 : Fin 1024 → BitVec 32)
  (m2 : Fin 1024 → Fin 24 → BitVec 1) (τ2 : Fin 24 → BitVec 32)

/-- The first layer's 1024 bits of a pixel with position bits p. -/
def net1 (p : Fin 16 → BitVec 1) : Fin 1024 → BitVec 1 :=
  fun o => agreeBit p (fun k => m0 k o) (τ0 o)

/-- The second layer's 1024 bits. -/
def net2 (p : Fin 16 → BitVec 1) : Fin 1024 → BitVec 1 :=
  fun o => agreeBit (net1 m0 τ0 p) (fun k => m1 k o) (τ1 o)

/-- The third layer's 24 bits. -/
def net (p : Fin 16 → BitVec 1) : Fin 24 → BitVec 1 :=
  fun o => agreeBit (net2 m0 τ0 m1 τ1 p) (fun k => m2 k o) (τ2 o)

/-- Channel c of the pixel: the byte of bits 8c … 8c + 7. -/
def pixel (p : Fin 16 → BitVec 1) (c : Fin 3) : BitVec 32 :=
  BitVec.ofNat 32 (byteVal fun b => net m0 τ0 m1 τ1 m2 τ2 p (col c b))

/-- Pixel (h, w) is row 256·h + w of the flattened image. -/
def pix (h w : Fin 256) : Fin 65536 := ⟨256 * h.val + w.val, by have := h.isLt; have := w.isLt; omega⟩

/-- The integer result: channel c of pixel (h, w), from the pixels' position bits P. -/
def outInt (P : Fin 65536 → Fin 16 → BitVec 1) (c : Fin 3) (h w : Fin 256) : BitVec 32 :=
  pixel m0 τ0 m1 τ1 m2 τ2 (P (pix h w)) c

end Cert.Spec

namespace Cert.Spec

open Idealize.ShloMosaic Idealize.ShloMosaic.ValueIdx

/-- The integer result array [3, 256, 256] from the position bits P and the six integer argument arrays. -/
def res0 (P : Fin 65536 → Fin 16 → BitVec 1)
    (a1 : (⟨2, ![16, 1024]⟩ : Shape).Idx → BitVec 1) (a2 : (⟨1, ![1024]⟩ : Shape).Idx → BitVec 32)
    (a3 : (⟨2, ![1024, 1024]⟩ : Shape).Idx → BitVec 1) (a4 : (⟨1, ![1024]⟩ : Shape).Idx → BitVec 32)
    (a5 : (⟨2, ![1024, 24]⟩ : Shape).Idx → BitVec 1) (a6 : (⟨1, ![24]⟩ : Shape).Idx → BitVec 32) :
    (⟨3, ![3, 256, 256]⟩ : Shape).Idx → BitVec 32 :=
  fun i => outInt (fun k o => a1 (ix2 k o)) (fun o => a2 (ix1 o)) (fun k o => a3 (ix2 k o)) (fun o => a4 (ix1 o))
    (fun k o => a5 (ix2 k o)) (fun o => a6 (ix1 o)) P (i 0) (i 1) (i 2)

/-- The float result array: the integer result as a number minus the image. -/
def res1 (P : Fin 65536 → Fin 16 → BitVec 1) (a0 : (⟨3, ![3, 256, 256]⟩ : Shape).Idx → EReal)
    (a1 : (⟨2, ![16, 1024]⟩ : Shape).Idx → BitVec 1) (a2 : (⟨1, ![1024]⟩ : Shape).Idx → BitVec 32)
    (a3 : (⟨2, ![1024, 1024]⟩ : Shape).Idx → BitVec 1) (a4 : (⟨1, ![1024]⟩ : Shape).Idx → BitVec 32)
    (a5 : (⟨2, ![1024, 24]⟩ : Shape).Idx → BitVec 1) (a6 : (⟨1, ![24]⟩ : Shape).Idx → BitVec 32) :
    (⟨3, ![3, 256, 256]⟩ : Shape).Idx → EReal :=
  fun i => ((((res0 P a1 a2 a3 a4 a5 a6 i).toInt : ℝ)) : EReal) - a0 i

end Cert.Spec

end
-- ==== Proof.KerBody.lean ====
/-
  The kernel body's two stored values, read at an index of the output block, as functions of the input blocks.
  A block holds 1024 pixels (rows). If row r of the position block holds the bits p r as numbers, the three mask blocks
  hold 2·m − 1, the three threshold rows hold (τ − D) + (0 + Σ_k m), and the weight block holds the byte weights, then
  the integer block holds at (c, r) channel c of pixel p r (`Spec.pixel`), and the float block holds that integer as a
  number minus the image block's entry.
-/
import proofs.«107590_j11020886082300_2_alg».proof.Proof.Gen.KernelIdeal.Skeleton
import proofs.«107590_j11020886082300_2_alg».proof.Proof.Spec

noncomputable section

namespace Cert.KernelIdeal.Body

open Cert.KernelIdeal Cert.KernelIdeal.Gen Idealize.ShloMosaic Idealize.ShloMosaic.ValueIdx
open Cert.LibXnorStage Cert.LibBitPack Cert.Spec

/-- What the body's input blocks hold, entry by entry. -/
structure Blocks (x0 : FVec Ideal S1024x16 .bf16) (x1 : FVec Ideal S16x1024 .bf16) (x2 : FVec Ideal S1x1024 .f32)
    (x3 : FVec Ideal S1024x1024 .bf16) (x4 : FVec Ideal S1x1024 .f32) (x5 : FVec Ideal S1024x24 .bf16)
    (x6 : FVec Ideal S1x24 .f32) (x7 : FVec Ideal S3x24 .bf16)
    (m0 : Fin 16 → Fin 1024 → BitVec 1) (τ0 : Fin 1024 → BitVec 32)
    (m1 : Fin 1024 → Fin 1024 → BitVec 1) (τ1 : Fin 1024 → BitVec 32)
    (m2 : Fin 1024 → Fin 24 → BitVec 1) (τ2 : Fin 24 → BitVec 32) (p : Fin 1024 → Fin 16 → BitVec 1) : Prop where
  h0 : ∀ (r : Fin 1024) (k : Fin 16), x0 (ix2 r k) = (((p r k).toNat : ℝ) : EReal)
  h1 : ∀ (k : Fin 16) (o : Fin 1024), x1 (ix2 k o)
    = Ideal.ofBits .f32 0x40000000#32 * (((m0 k o).toNat : ℝ) : EReal) - Ideal.ofBits .f32 0x3F800000#32
  h2 : ∀ o : Fin 1024, x2 (ix2 (0 : Fin 1) o)
    = ((((τ0 o).toInt : ℝ) : EReal) - Ideal.ofBits .f32 0x41800000#32)
      + (Ideal.ofBits .f32 0x00000000#32 + ∑ k : Fin 16, (((m0 k o).toNat : ℝ) : EReal))
  h3 : ∀ (k : Fin 1024) (o : Fin 1024), x3 (ix2 k o)
    = Ideal.ofBits .f32 0x40000000#32 * (((m1 k o).toNat : ℝ) : EReal) - Ideal.ofBits .f32 0x3F800000#32
  h4 : ∀ o : Fin 1024, x4 (ix2 (0 : Fin 1) o)
    = ((((τ1 o).toInt : ℝ) : EReal) - Ideal.ofBits .f32 0x44800000#32)
      + (Ideal.ofBits .f32 0x00000000#32 + ∑ k : Fin 1024, (((m1 k o).toNat : ℝ) : EReal))
  h5 : ∀ (k : Fin 1024) (o : Fin 24), x5 (ix2 k o)
    = Ideal.ofBits .f32 0x40000000#32 * (((m2 k o).toNat : ℝ) : EReal) - Ideal.ofBits .f32 0x3F800000#32
  h6 : ∀ o : Fin 24, x6 (ix2 (0 : Fin 1) o)
    = ((((τ2 o).toInt : ℝ) : EReal) - Ideal.ofBits .f32 0x44800000#32)
      + (Ideal.ofBits .f32 0x00000000#32 + ∑ k : Fin 1024, (((m2 k o).toNat : ℝ) : EReal))
  h7 : ∀ (c : Fin 3) (j : Fin 24), x7 (ix2 c j) = ((wtab c j : ℝ) : EReal)

theorem d16 : Ideal.ofBits .f32 0x41800000#32 = (((16 : ℕ) : ℝ) : EReal) := Cert.Consts.w16.trans (by norm_num)
theorem d1024 : Ideal.ofBits .f32 0x44800000#32 = (((1024 : ℕ) : ℝ) : EReal) := Cert.Consts.w1024.trans (by norm_num)

section
variable {x0 : FVec Ideal S1024x16 .bf16} {x1 : FVec Ideal S16x1024 .bf16} {x2 : FVec Ideal S1x1024 .f32}
  {x3 : FVec Ideal S1024x1024 .bf16} {x4 : FVec Ideal S1x1024 .f32} {x5 : FVec Ideal S1024x24 .bf16}
  {x6 : FVec Ideal S1x24 .f32} {x7 : FVec Ideal S3x24 .bf16}
  {m0 : Fin 16 → Fin 1024 → BitVec 1} {τ0 : Fin 1024 → BitVec 32}
  {m1 : Fin 1024 → Fin 1024 → BitVec 1} {τ1 : Fin 1024 → BitVec 32}
  {m2 : Fin 1024 → Fin 24 → BitVec 1} {τ2 : Fin 24 → BitVec 32} {p : Fin 1024 → Fin 16 → BitVec 1}

set_option maxHeartbeats 1000000 in
/-- The integer payload at channel c and row r is channel c of pixel p r. -/
theorem pay2_apply (H : Blocks x0 x1 x2 x3 x4 x5 x6 x7 m0 τ0 m1 τ1 m2 τ2 p) (c : Fin 3) (r : Fin 1024) :
    k0_pay2 (F := Ideal) x0 x1 x2 x3 x4 x5 x6 x7 (ix2 c r) = pixel m0 τ0 m1 τ1 m2 τ2 (p r) c := by
  unfold k0_pay2
  simp only [shapeCast_self]
  refine (kernel_pack 1024 _ _ _ _ _ c r).trans ?_
  refine (congrArg (Ideal.fptosi 32) (Finset.sum_congr rfl fun j _ => ?_)).trans
    (?_ : Ideal.fptosi 32 (∑ j : Fin 24, ((wtab c j : ℝ) : EReal)
        * ((((net m0 τ0 m1 τ1 m2 τ2 (p r) j).toNat : ℝ)) : EReal)) = _)
  · rw [H.h7 c j]
    refine congrArg (fun b : BitVec 1 => ((wtab c j : ℝ) : EReal) * (((b.toNat : ℝ)) : EReal)) ?_
    show _ = agreeBit (net2 m0 τ0 m1 τ1 (p r)) (fun k => m2 k j) (τ2 j)
    refine layer_from_bits 1024 1024 24 _ x5 x6 _ _ _ r j _ _ _ _ d1024 (fun k => ?_) (fun k => H.h5 k j) (H.h6 j)
    show _ = agreeBit (net1 m0 τ0 (p r)) (fun k' => m1 k' k) (τ1 k)
    refine layer_from_bits 1024 1024 1024 _ x3 x4 _ _ _ r k _ _ _ _ d1024 (fun k' => ?_) (fun k' => H.h3 k' k) (H.h4 k)
    show _ = agreeBit (p r) (fun k'' => m0 k'' k') (τ0 k')
    exact kernel_stage 1024 16 1024 x0 x1 x2 _ r k' (p r) _ _ _ d16 (H.h0 r) (fun k'' => H.h1 k'' k') (H.h2 k')
  · simp only [← EReal.coe_mul, ← Cert.LibXnorFold.coe_sum]
    exact float_pack c (net m0 τ0 m1 τ1 m2 τ2 (p r))

/-- The float payload at an index: the integer as a number minus the image block's entry. -/
theorem pay1_apply (v36 : IVec S3x1024 32) (v39 : FVec Ideal S3x1024 .f32) (i : S3x1024.Idx) :
    k0_pay1 (F := Ideal) v36 v39 i = (((v36 i).toInt : ℝ) : EReal) - v39 i := by
  unfold k0_pay1
  simp only [shapeCast_self]
  rfl

end

end Cert.KernelIdeal.Body

end
-- ==== Proof.LibXnorHost.lean ====
/-
  The host's preparation of a binary layer's operands, read at an index, on the extended reals.
  * maskP: a one-bit mask M of shape [a, b], converted to numbers, doubled and lowered by one (each literal a rank-0
    constant spread over the shape), then narrowed: the entry (k, o) is 2·M(k, o) − 1.
  * thrP: the thresholds T of shape [b], converted as signed integers, lowered by a literal, plus the column sums of
    the mask's numbers (a sum along axis 0 from the zero word), recast as one row [1, b]: the entry (0, o) is
    (T(o) − literal) + (0 + Σ_k M(k, o)).
  * colsum_host: the host's sum along axis 0 of an [a, b] array reads, at o, the initial value plus Σ_k x(k, o).
  * row_of_vec: a [b] vector recast to a [1, b] row reads the vector's entry.
  * flat_of_cube / cube_of_flat: a [3, n·n'] array recast from or to [3, n, n'] moves entry (c, h, w) to (c, n'·h + w).
  Over the library only; every extent is a variable.
-/
import Idealize.ShloMosaic.PureOps.Ideal.Laws
import Idealize.ShloMosaic.Lib.ValueIdx
import Idealize.ShloMosaic.Lib.Pipeline.Value

noncomputable section

namespace Cert.LibXnorHost

open Idealize.ShloMosaic Idealize.ShloMosaic.ValueIdx

/-- A rank-0 float constant spread over any shape reads the literal everywhere. -/
theorem bcast_const {t : Shape} (h : (⟨0, ![]⟩ : Shape).BroadcastsInDim t (![] : Fin 0 → Fin t.rank)) (w : BitVec 32)
    (i : t.Idx) :
    broadcastInDim t ![] h (constant (F := Ideal) ⟨0, ![]⟩ .f32 w) i = Ideal.ofBits .f32 w :=
  broadcastInDim_apply (![] : Fin 0 → Fin t.rank) h _ i ix0 fun ax => ax.elim0

/-- The folded mask 2·M − 1. -/
def maskP (a b : ℕ) (h0 : (⟨0, ![]⟩ : Shape).BroadcastsInDim ⟨2, ![a, b]⟩ (![] : Fin 0 → Fin 2))
    (hbf : FTy.bf16.bits < FTy.f32.bits) (M : IVec ⟨2, ![a, b]⟩ 1) : FVec Ideal ⟨2, ![a, b]⟩ .bf16 :=
  truncf .bf16 (subf (mulf (broadcastInDim ⟨2, ![a, b]⟩ ![] h0 (constant (F := Ideal) ⟨0, ![]⟩ .f32 0x40000000#32))
      (uitofp .f32 M)) (broadcastInDim ⟨2, ![a, b]⟩ ![] h0 (constant (F := Ideal) ⟨0, ![]⟩ .f32 0x3F800000#32))) hbf

theorem maskP_apply (a b : ℕ) (h0 : (⟨0, ![]⟩ : Shape).BroadcastsInDim ⟨2, ![a, b]⟩ (![] : Fin 0 → Fin 2))
    (hbf : FTy.bf16.bits < FTy.f32.bits) (M : IVec ⟨2, ![a, b]⟩ 1) (i : (⟨2, ![a, b]⟩ : Shape).Idx) :
    maskP a b h0 hbf M i
      = Ideal.ofBits .f32 0x40000000#32 * (((M i).toNat : ℝ) : EReal) - Ideal.ofBits .f32 0x3F800000#32 := by
  show broadcastInDim ⟨2, ![a, b]⟩ ![] h0 (constant (F := Ideal) ⟨0, ![]⟩ .f32 0x40000000#32) i * (((M i).toNat : ℝ) : EReal)
      - broadcastInDim ⟨2, ![a, b]⟩ ![] h0 (constant (F := Ideal) ⟨0, ![]⟩ .f32 0x3F800000#32) i = _
  rw [bcast_const, bcast_const]

/-- The host's sum along axis 0, at column o. -/
theorem colsum_host {a b : ℕ} (x : FVec Ideal ⟨2, ![a, b]⟩ .f32) (init : (⟨0, ![]⟩ : Shape).Idx → EReal)
    (h' : (⟨2, ![a, b]⟩ : Shape).ReducesTo [0] ⟨1, ![b]⟩) (hu : 0 < (⟨0, ![]⟩ : Shape).numel)
    (hR : (⟨2, ![a, b]⟩ : Shape).Reduces [0] ⟨1, ![b]⟩) (o : Fin b) :
    Host.reduceAdd (F := Ideal) x init h' hu (ix1 o) = init (Shape.Idx.first hu) + ∑ k : Fin a, x (ix2 k o) :=
  (Ideal.hostReduceAdd_single h' hR x _ (ix1 o)).trans
    (congrArg (init (Shape.Idx.first hu) + ·) (Finset.sum_congr rfl fun k _ =>
      congrArg x (funext fun d => Fin.ext (by match d with | ⟨0, _⟩ => rfl | ⟨1, _⟩ => rfl))))

/-- A [b] vector recast to a [1, b] row reads, at (0, o), the vector's entry o. -/
theorem row_of_vec {b : ℕ} {α : Type} (v : (⟨1, ![b]⟩ : Shape).Idx → α) (h : (⟨1, ![b]⟩ : Shape).ShapeCasts ⟨2, ![1, b]⟩)
    (o : Fin b) : shapeCast ⟨2, ![1, b]⟩ v h (ix2 (0 : Fin 1) o) = v (ix1 o) :=
  (shapeCast_addUnit_apply ![b] v h (ix2 (0 : Fin 1) o)).trans
    (congrArg v (funext fun d => by match d with | ⟨0, _⟩ => rfl))

/-- The folded thresholds (T − literal) + column sums, as one row. -/
def thrP (a b : ℕ) (dw : BitVec 32) (h0 : (⟨0, ![]⟩ : Shape).BroadcastsInDim ⟨1, ![b]⟩ (![] : Fin 0 → Fin 1))
    (h' : (⟨2, ![a, b]⟩ : Shape).ReducesTo [0] ⟨1, ![b]⟩) (hu : 0 < (⟨0, ![]⟩ : Shape).numel)
    (hc : (⟨1, ![b]⟩ : Shape).ShapeCasts ⟨2, ![1, b]⟩) (M : IVec ⟨2, ![a, b]⟩ 1) (T : IVec ⟨1, ![b]⟩ 32) :
    FVec Ideal ⟨2, ![1, b]⟩ .f32 :=
  shapeCast ⟨2, ![1, b]⟩
    (addf (subf (sitofp .f32 T) (broadcastInDim ⟨1, ![b]⟩ ![] h0 (constant (F := Ideal) ⟨0, ![]⟩ .f32 dw)))
      (Host.reduceAdd (F := Ideal) (uitofp .f32 M) (constant (F := Ideal) ⟨0, ![]⟩ .f32 0x00000000#32) h' hu)) hc

theorem thrP_apply (a b : ℕ) (dw : BitVec 32) (h0 : (⟨0, ![]⟩ : Shape).BroadcastsInDim ⟨1, ![b]⟩ (![] : Fin 0 → Fin 1))
    (h' : (⟨2, ![a, b]⟩ : Shape).ReducesTo [0] ⟨1, ![b]⟩) (hu : 0 < (⟨0, ![]⟩ : Shape).numel)
    (hc : (⟨1, ![b]⟩ : Shape).ShapeCasts ⟨2, ![1, b]⟩) (hR : (⟨2, ![a, b]⟩ : Shape).Reduces [0] ⟨1, ![b]⟩)
    (M : IVec ⟨2, ![a, b]⟩ 1) (T : IVec ⟨1, ![b]⟩ 32) (o : Fin b) :
    thrP a b dw h0 h' hu hc M T (ix2 (0 : Fin 1) o)
      = ((((T (ix1 o)).toInt : ℝ) : EReal) - Ideal.ofBits .f32 dw)
        + (Ideal.ofBits .f32 0x00000000#32 + ∑ k : Fin a, (((M (ix2 k o)).toNat : ℝ) : EReal)) := by
  unfold thrP
  rw [row_of_vec]
  show ((((T (ix1 o)).toInt : ℝ) : EReal) - broadcastInDim ⟨1, ![b]⟩ ![] h0 (constant (F := Ideal) ⟨0, ![]⟩ .f32 dw) (ix1 o))
      + Host.reduceAdd (F := Ideal) (uitofp .f32 M) (constant (F := Ideal) ⟨0, ![]⟩ .f32 0x00000000#32) h' hu (ix1 o) = _
  rw [bcast_const, colsum_host _ _ h' hu hR o]
  rfl

/-- A [3, n, n'] array recast to [3, n·n'] reads, at (c, n'·h + w), the entry (c, h, w). -/
theorem flat_of_cube {α : Type} (n n' : ℕ) (x : (⟨3, ![3, n, n']⟩ : Shape).Idx → α)
    (h : (⟨3, ![3, n, n']⟩ : Shape).ShapeCasts ⟨2, ![3, n * n']⟩) (c : Fin 3) (hh : Fin n) (w : Fin n')
    (q : Fin (n * n')) (hq : q.val = n' * hh.val + w.val) :
    shapeCast ⟨2, ![3, n * n']⟩ x h (ix2 c q) = x (ix3 c hh w) :=
  shapeCast_apply x h _ _ (by
    rw [Shape.rowMajor_val_three, Shape.rowMajor_val_two]
    show (c.val * n + hh.val) * n' + w.val = c.val * (n * n') + q.val
    rw [hq]; ring)

/-- A [3, n·n'] array recast to [3, n, n'] reads, at (c, h, w), the entry (c, n'·h + w). -/
theorem cube_of_flat {α : Type} (n n' : ℕ) (x : (⟨2, ![3, n * n']⟩ : Shape).Idx → α)
    (h : (⟨2, ![3, n * n']⟩ : Shape).ShapeCasts ⟨3, ![3, n, n']⟩) (c : Fin 3) (hh : Fin n) (w : Fin n')
    (q : Fin (n * n')) (hq : q.val = n' * hh.val + w.val) :
    shapeCast ⟨3, ![3, n, n']⟩ x h (ix3 c hh w) = x (ix2 c q) :=
  shapeCast_apply x h _ _ (by
    rw [Shape.rowMajor_val_three, Shape.rowMajor_val_two]
    show c.val * (n * n') + q.val = (c.val * n + hh.val) * n' + w.val
    rw [hq]; ring)

end Cert.LibXnorHost

end
-- ==== Proof.KerHost.lean ====
/-
  The kernel program's operand arrays as the region finds them, entry by entry, as functions of @main's arguments.
  The host lines before the call fold each mask to 2·M − 1 and each threshold vector to one row (T − D) + column sums,
  convert the position bits to numbers, flatten the image to [3, 65536], and narrow a 3×24 table of weights: row c of
  the table holds 128, 64, …, 1 in columns 8c … 8c + 7 and zeros elsewhere.
-/
import proofs.«107590_j11020886082300_2_alg».proof.Proof.Gen.KernelIdeal.Frame
import proofs.«107590_j11020886082300_2_alg».proof.Proof.LibXnorHost
import proofs.«107590_j11020886082300_2_alg».proof.Proof.LibBitPack
import proofs.«107590_j11020886082300_2_alg».proof.Proof.Consts

noncomputable section

namespace Cert.KernelIdeal.HostSide

open Cert.KernelIdeal Cert.KernelIdeal.Gen Idealize.ShloMosaic Idealize.ShloMosaic.ValueIdx Idealize.ShloMosaic.StableHlo
open Idealize.SL.Sem Idealize.ShloMosaic.TcCoe Cert.LibXnorHost Cert.LibBitPack

/-! ## The weight table -/

/-- The table's words in closed form: position v = 24c + j holds the word of 2^(7 − j mod 8) when j div 8 = c. -/
def wword (v : ℕ) : BitVec 32 :=
  if (v % 24) / 8 = v / 24 then BitVec.ofNat 32 (0x3F800000 + (7 - v % 8) * 0x800000) else 0#32

theorem lit0_word : ∀ n : Fin 72, lit0 n = wword n.val := by decide

/-- The binary32 word with exponent field 127 + e and zero fraction is 2^e. -/
theorem ofBits_pow (e : ℕ) (he : e ≤ 7) :
    Ideal.ofBits .f32 (BitVec.ofNat 32 (0x3F800000 + e * 0x800000)) = (((2 : ℝ) ^ e : ℝ) : EReal) := by
  interval_cases e
  · exact Cert.Consts.w1.trans (by norm_num)
  · exact Cert.Consts.w2.trans (by norm_num)
  · exact Cert.Consts.w4.trans (by norm_num)
  · exact Cert.Consts.w8.trans (by norm_num)
  · exact Cert.Consts.w16.trans (by norm_num)
  · exact Cert.Consts.w32.trans (by norm_num)
  · exact Cert.Consts.w64.trans (by norm_num)
  · exact Cert.Consts.w128.trans (by norm_num)

/-- The table's entry (c, j) is the weight w(c, j). -/
theorem table_apply (cc : Fin 3) (j : Fin 24) :
    Ideal.ofBits .f32 (lit0 (S3x24.rowMajor (ix2 cc j))) = ((wtab cc j : ℝ) : EReal) := by
  have hv : (S3x24.rowMajor (ix2 cc j)).val = cc.val * 24 + j.val := Shape.rowMajor_val_two _
  have hc := cc.isLt; have hj := j.isLt
  refine (congrArg (Ideal.ofBits .f32) (lit0_word (S3x24.rowMajor (ix2 cc j)))).trans ?_
  rw [hv]
  unfold wword wtab
  have e1 : (cc.val * 24 + j.val) % 24 / 8 = j.val / 8 := by omega
  have e2 : (cc.val * 24 + j.val) / 24 = cc.val := by omega
  have e3 : (cc.val * 24 + j.val) % 8 = j.val % 8 := by omega
  rw [e1, e2, e3]
  by_cases h : j.val / 8 = cc.val
  · rw [if_pos h, if_pos h]; exact ofBits_pow _ (by omega)
  · rw [if_neg h, if_neg h]; exact Cert.Consts.w0

/-! ## The arrays -/

variable (m : (ℓ : Loc nD τ sig) → Buf (Elt Ideal) ℓ) (c : Dev nD)

theorem V38 : V m c main_v38 = uitofp (F := Ideal) .bf16 (V m c main_v37) := by
  show StableHlo.after hostOps0 (fun b => m (c, b)) (Proc.devRef .tc main_v38)
    = uitofp (F := Ideal) .bf16 (StableHlo.after hostOps0 (fun b => m (c, b)) (Proc.devRef .tc main_v37))
  after_results_simp <;> rfl

theorem V39 : V m c main_v39 = shapeCast S3x65536 (m ((c : Thread nD τ).loc main_arg0)) shapeCasts_S3x256x256_S3x65536 := by
  show StableHlo.after hostOps0 (fun b => m (c, b)) (Proc.devRef .tc main_v39) = _
  after_results_simp <;> rfl

theorem V45 : V m c main_v45 = maskP 16 1024 bcast_S_S16x1024 bitsLt_bf16_f32 (m ((c : Thread nD τ).loc main_arg1)) := by
  show StableHlo.after hostOps0 (fun b => m (c, b)) (Proc.devRef .tc main_v45) = _
  after_results_simp <;> rfl

theorem V51 : V m c main_v51 = thrP 16 1024 0x41800000#32 bcast_S_S1024 reducesTo_S16x1024_S1024_d0 h_S_
    shapeCasts_S1024_S1x1024 (m ((c : Thread nD τ).loc main_arg1)) (m ((c : Thread nD τ).loc main_arg2)) := by
  show StableHlo.after hostOps0 (fun b => m (c, b)) (Proc.devRef .tc main_v51) = _
  after_results_simp <;> rfl

theorem V57 : V m c main_v57 = maskP 1024 1024 bcast_S_S1024x1024 bitsLt_bf16_f32 (m ((c : Thread nD τ).loc main_arg3)) := by
  show StableHlo.after hostOps0 (fun b => m (c, b)) (Proc.devRef .tc main_v57) = _
  after_results_simp <;> rfl

theorem V63 : V m c main_v63 = thrP 1024 1024 0x44800000#32 bcast_S_S1024 reducesTo_S1024x1024_S1024_d0 h_S_
    shapeCasts_S1024_S1x1024 (m ((c : Thread nD τ).loc main_arg3)) (m ((c : Thread nD τ).loc main_arg4)) := by
  show StableHlo.after hostOps0 (fun b => m (c, b)) (Proc.devRef .tc main_v63) = _
  after_results_simp <;> rfl

theorem V69 : V m c main_v69 = maskP 1024 24 bcast_S_S1024x24 bitsLt_bf16_f32 (m ((c : Thread nD τ).loc main_arg5)) := by
  show StableHlo.after hostOps0 (fun b => m (c, b)) (Proc.devRef .tc main_v69) = _
  after_results_simp <;> rfl

theorem V75 : V m c main_v75 = thrP 1024 24 0x44800000#32 bcast_S_S24 reducesTo_S1024x24_S24_d0 h_S_
    shapeCasts_S24_S1x24 (m ((c : Thread nD τ).loc main_arg5)) (m ((c : Thread nD τ).loc main_arg6)) := by
  show StableHlo.after hostOps0 (fun b => m (c, b)) (Proc.devRef .tc main_v75) = _
  after_results_simp <;> rfl

theorem V76 : V m c main_v76
    = truncf .bf16 (fun i => FloatOps.ofBits (F := Ideal) .f32 (lit0 (S3x24.rowMajor i)) : FVec Ideal S3x24 .f32) bitsLt_bf16_f32 := by
  show StableHlo.after hostOps0 (fun b => m (c, b)) (Proc.devRef .tc main_v76) = _
  after_results_simp <;> rfl

end Cert.KernelIdeal.HostSide

end
-- ==== Proof.KerValue.lean ====
/-
  The kernel program's two results as functions of its arguments.
  Grid point t handles the 1024 pixels (rows) 1024·t … 1024·t + 1023: it reads rows of the position array and columns of
  the flattened image, and the masks, thresholds and weights whole; what it writes back to columns 1024·t … of the two
  [3, 65536] outputs is, by the body's value (`Body.pay2_apply`), channel c of each pixel and that number minus the
  image. The sixty-four blocks tile the outputs, so each output array is one function of the arguments; the two host
  lines after the call recast them to [3, 256, 256].
-/
import proofs.«107590_j11020886082300_2_alg».proof.Proof.Gen.KernelIdeal.Frame
import proofs.«107590_j11020886082300_2_alg».proof.Proof.KerBody
import proofs.«107590_j11020886082300_2_alg».proof.Proof.KerHost

set_option maxRecDepth 16384

noncomputable section

namespace Cert.KernelIdeal.KerValue

open Cert.KernelIdeal Cert.KernelIdeal.Gen Idealize.ShloMosaic Idealize.ShloMosaic.ValueIdx Idealize.ShloMosaic.TcCoe
open Idealize.SL.Sem
open Idealize.ShloMosaic.Pipeline (Dat Cfg Window)
open Cert.Spec Cert.LibBitPack Cert.LibXnorHost

variable (m : (ℓ : Loc nD τ sig) → Buf (Elt Ideal) ℓ) (ρ : Dev nD → PrngReg) (c : Dev nD)

/-! ## The arguments, by plain coordinates -/

def M0 : Fin 16 → Fin 1024 → BitVec 1 := fun k o => (m ((c : Thread nD τ).loc main_arg1)) (ix2 k o)
def T0 : Fin 1024 → BitVec 32 := fun o => (m ((c : Thread nD τ).loc main_arg2)) (ix1 o)
def M1 : Fin 1024 → Fin 1024 → BitVec 1 := fun k o => (m ((c : Thread nD τ).loc main_arg3)) (ix2 k o)
def T1 : Fin 1024 → BitVec 32 := fun o => (m ((c : Thread nD τ).loc main_arg4)) (ix1 o)
def M2 : Fin 1024 → Fin 24 → BitVec 1 := fun k o => (m ((c : Thread nD τ).loc main_arg5)) (ix2 k o)
def T2 : Fin 24 → BitVec 32 := fun o => (m ((c : Thread nD τ).loc main_arg6)) (ix1 o)
/-- The position bits as the region finds them. -/
def PK : Fin 65536 → Fin 16 → BitVec 1 := fun n k => V m c main_v37 (ix2 n k)

/-- Row r of grid point t's block is pixel 1024·t + r. -/
def row (t : Fin cfg0.N) (r : Fin 1024) : Fin 65536 :=
  ⟨1024 * t.val + r.val, by have ht := t.isLt; have hN : cfg0.N = 64 := Gen.N_0; have := r.isLt; omega⟩

/-! ## The index maps, decided over the grid -/

theorem hz : (![0, 0] : Fin 2 → Nat) = fun _ => 0 := funext fun a => by fin_cases a <;> rfl

theorem idx_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = t.val
    ∧ win0_9.index t (0 : Fin 2) = 0
    ∧ win0_9.index t (1 : Fin 2) = t.val
    ∧ win0_10.index t (0 : Fin 2) = 0
    ∧ win0_10.index t (1 : Fin 2) = t.val :=
  (by decide +kernel : ∀ t : Fin grid0.N, _)

/-! ## The input blocks read off the arrays -/

theorem blk0 (t : Fin cfg0.N) (r : Fin 1024) (k : Fin 16) : iblk m c 0 t (ix2 r k) = V m c main_v38 (ix2 (row t r) k) := by
  show V m c main_v38 (((cfg0.win 0).blk t).view.emb (ix2 r k)) = _
  refine congrArg (V m c main_v38) (funext fun a => Fin.ext ?_)
  match a with
  | ⟨0, _⟩ => show win0_0.index t (0 : Fin 2) * 1024 + 1 * r.val = 1024 * t.val + r.val; rw [(idx_facts t).1]; omega
  | ⟨1, _⟩ => show win0_0.index t (1 : Fin 2) * 16 + 1 * k.val = k.val; rw [(idx_facts t).2.1]; omega

theorem blk1 (t : Fin cfg0.N) (y : S16x1024.Idx) : iblk m c 1 t y = V m c main_v45 y := by
  show V m c main_v45 (((cfg0.win 1).blk t).view.emb y) = _
  refine congrArg (V m c main_v45) (funext fun a => Fin.ext ?_)
  match a with
  | ⟨0, _⟩ => show win0_1.index t (0 : Fin 2) * 16 + 1 * (y 0).val = (y 0).val; rw [(idx_facts t).2.2.1]; omega
  | ⟨1, _⟩ => show win0_1.index t (1 : Fin 2) * 1024 + 1 * (y 1).val = (y 1).val; rw [(idx_facts t).2.2.2.1]; omega

theorem blk2 (t : Fin cfg0.N) (y : S1x1024.Idx) : iblk m c 2 t y = V m c main_v51 y := by
  show V m c main_v51 (((cfg0.win 2).blk t).view.emb y) = _
  refine congrArg (V m c main_v51) (funext fun a => Fin.ext ?_)
  match a with
  | ⟨0, _⟩ => show win0_2.index t (0 : Fin 2) * 1 + 1 * (y 0).val = (y 0).val; rw [(idx_facts t).2.2.2.2.1]; omega
  | ⟨1, _⟩ => show win0_2.index t (1 : Fin 2) * 1024 + 1 * (y 1).val = (y 1).val; rw [(idx_facts t).2.2.2.2.2.1]; omega

theorem blk3 (t : Fin cfg0.N) (y : S1024x1024.Idx) : iblk m c 3 t y = V m c main_v57 y := by
  show V m c main_v57 (((cfg0.win 3).blk t).view.emb y) = _
  refine congrArg (V m c main_v57) (funext fun a => Fin.ext ?_)
  match a with
  | ⟨0, _⟩ => show win0_3.index t (0 : Fin 2) * 1024 + 1 * (y 0).val = (y 0).val; rw [(idx_facts t).2.2.2.2.2.2.1]; omega
  | ⟨1, _⟩ => show win0_3.index t (1 : Fin 2) * 1024 + 1 * (y 1).val = (y 1).val; rw [(idx_facts t).2.2.2.2.2.2.2.1]; omega

theorem blk4 (t : Fin cfg0.N) (y : S1x1024.Idx) : iblk m c 4 t y = V m c main_v63 y := by
  show V m c main_v63 (((cfg0.win 4).blk t).view.emb y) = _
  refine congrArg (V m c main_v63) (funext fun a => Fin.ext ?_)
  match a with
  | ⟨0, _⟩ => show win0_4.index t (0 : Fin 2) * 1 + 1 * (y 0).val = (y 0).val; rw [(idx_facts t).2.2.2.2.2.2.2.2.1]; omega
  | ⟨1, _⟩ => show win0_4.index t (1 : Fin 2) * 1024 + 1 * (y 1).val = (y 1).val; rw [(idx_facts t).2.2.2.2.2.2.2.2.2.1]; omega

theorem blk5 (t : Fin cfg0.N) (y : S1024x24.Idx) : iblk m c 5 t y = V m c main_v69 y := by
  show V m c main_v69 (((cfg0.win 5).blk t).view.emb y) = _
  refine congrArg (V m c main_v69) (funext fun a => Fin.ext ?_)
  match a with
  | ⟨0, _⟩ => show win0_5.index t (0 : Fin 2) * 1024 + 1 * (y 0).val = (y 0).val; rw [(idx_facts t).2.2.2.2.2.2.2.2.2.2.1]; omega
  | ⟨1, _⟩ => show win0_5.index t (1 : Fin 2) * 24 + 1 * (y 1).val = (y 1).val; rw [(idx_facts t).2.2.2.2.2.2.2.2.2.2.2.1]; omega

theorem blk6 (t : Fin cfg0.N) (y : S1x24.Idx) : iblk m c 6 t y = V m c main_v75 y := by
  show V m c main_v75 (((cfg0.win 6).blk t).view.emb y) = _
  refine congrArg (V m c main_v75) (funext fun a => Fin.ext ?_)
  match a with
  | ⟨0, _⟩ => show win0_6.index t (0 : Fin 2) * 1 + 1 * (y 0).val = (y 0).val; rw [(idx_facts t).2.2.2.2.2.2.2.2.2.2.2.2.1]; omega
  | ⟨1, _⟩ => show win0_6.index t (1 : Fin 2) * 24 + 1 * (y 1).val = (y 1).val; rw [(idx_facts t).2.2.2.2.2.2.2.2.2.2.2.2.2.1]; omega

theorem blk7 (t : Fin cfg0.N) (y : S3x24.Idx) : iblk m c 7 t y = V m c main_v76 y := by
  show V m c main_v76 (((cfg0.win 7).blk t).view.emb y) = _
  refine congrArg (V m c main_v76) (funext fun a => Fin.ext ?_)
  match a with
  | ⟨0, _⟩ => show win0_7.index t (0 : Fin 2) * 3 + 1 * (y 0).val = (y 0).val; rw [(idx_facts t).2.2.2.2.2.2.2.2.2.2.2.2.2.2.1]; omega
  | ⟨1, _⟩ => show win0_7.index t (1 : Fin 2) * 24 + 1 * (y 1).val = (y 1).val; rw [(idx_facts t).2.2.2.2.2.2.2.2.2.2.2.2.2.2.2.1]; omega

theorem blk8 (t : Fin cfg0.N) (cc : Fin 3) (r : Fin 1024) : iblk m c 8 t (ix2 cc r) = V m c main_v39 (ix2 cc (row t r)) := by
  show V m c main_v39 (((cfg0.win 8).blk t).view.emb (ix2 cc r)) = _
  refine congrArg (V m c main_v39) (funext fun a => Fin.ext ?_)
  match a with
  | ⟨0, _⟩ => show win0_8.index t (0 : Fin 2) * 3 + 1 * cc.val = cc.val; rw [(idx_facts t).2.2.2.2.2.2.2.2.2.2.2.2.2.2.2.2.1]; omega
  | ⟨1, _⟩ => show win0_8.index t (1 : Fin 2) * 1024 + 1 * r.val = 1024 * t.val + r.val; rw [(idx_facts t).2.2.2.2.2.2.2.2.2.2.2.2.2.2.2.2.2.1]; omega

/-- What grid point t's input blocks hold. -/
theorem blocks (t : Fin cfg0.N) :
    Body.Blocks (iblk m c 0 t) (iblk m c 1 t) (iblk m c 2 t) (iblk m c 3 t) (iblk m c 4 t) (iblk m c 5 t) (iblk m c 6 t)
      (iblk m c 7 t) (M0 m c) (T0 m c) (M1 m c) (T1 m c) (M2 m c) (T2 m c) (fun r => PK m c (row t r)) where
  h0 := fun r k => by rw [blk0, HostSide.V38]; rfl
  h1 := fun k o => by rw [blk1, HostSide.V45, maskP_apply]; rfl
  h2 := fun o => by rw [blk2, HostSide.V51, thrP_apply 16 1024 _ _ _ _ _ (by decide)]; rfl
  h3 := fun k o => by rw [blk3, HostSide.V57, maskP_apply]; rfl
  h4 := fun o => by rw [blk4, HostSide.V63, thrP_apply 1024 1024 _ _ _ _ _ (by decide)]; rfl
  h5 := fun k o => by rw [blk5, HostSide.V69, maskP_apply]; rfl
  h6 := fun o => by rw [blk6, HostSide.V75, thrP_apply 1024 24 _ _ _ _ _ (by decide)]; rfl
  h7 := fun cc j => by rw [blk7, HostSide.V76]; exact HostSide.table_apply cc j

/-! ## The two output arrays -/

/-- The integer output [3, 65536]: channel c of pixel n at (c, n). -/
def G9 : S3x65536.Idx → BitVec 32 := fun i => pixel (M0 m c) (T0 m c) (M1 m c) (T1 m c) (M2 m c) (T2 m c) (PK m c (i 1)) (i 0)

/-- The float output [3, 65536]: the integer as a number minus the flattened image. -/
def G10 : S3x65536.Idx → EReal := fun i => ((((G9 m c i).toInt : ℝ)) : EReal) - V m c main_v39 i

theorem emb9 (t : Fin cfg0.N) (cc : Fin 3) (r : Fin 1024) : ((cfg0.win 9).blk t).view.emb (ix2 cc r) = ix2 cc (row t r) :=
  funext fun a => Fin.ext (by
    match a with
    | ⟨0, _⟩ => show win0_9.index t (0 : Fin 2) * 3 + 1 * cc.val = cc.val; rw [(idx_facts t).2.2.2.2.2.2.2.2.2.2.2.2.2.2.2.2.2.2.1]; omega
    | ⟨1, _⟩ => show win0_9.index t (1 : Fin 2) * 1024 + 1 * r.val = 1024 * t.val + r.val; rw [(idx_facts t).2.2.2.2.2.2.2.2.2.2.2.2.2.2.2.2.2.2.2.1]; omega)

theorem emb10 (t : Fin cfg0.N) (cc : Fin 3) (r : Fin 1024) : ((cfg0.win 10).blk t).view.emb (ix2 cc r) = ix2 cc (row t r) :=
  funext fun a => Fin.ext (by
    match a with
    | ⟨0, _⟩ => show win0_10.index t (0 : Fin 2) * 3 + 1 * cc.val = cc.val; rw [(idx_facts t).2.2.2.2.2.2.2.2.2.2.2.2.2.2.2.2.2.2.2.2.1]; omega
    | ⟨1, _⟩ => show win0_10.index t (1 : Fin 2) * 1024 + 1 * r.val = 1024 * t.val + r.val; rw [(idx_facts t).2.2.2.2.2.2.2.2.2.2.2.2.2.2.2.2.2.2.2.2.2]; omega)

/-- What point t writes back to the integer output is block t of `G9`. -/
theorem flushed9 (t : Fin cfg0.N) :
    (dats m 0 c).flushed 9 t = ((cfg0.win 9).blk t).view.read (Elt Ideal) (G9 m c) := by
  show (cfg0.win 9).cut (grid0.coords t) ((dats m 0 c).after 9 t) = _
  rw [after0_9]
  unfold out0_9
  rw [View.canon_unit_zero hz]
  simp only [View.ld_unit_zero (S := S1024x16) hz, View.ld_unit_zero (S := S16x1024) hz, View.ld_unit_zero (S := S1x1024) hz,
    View.ld_unit_zero (S := S1024x1024) hz, View.ld_unit_zero (S := S1024x24) hz, View.ld_unit_zero (S := S1x24) hz,
    View.ld_unit_zero (S := S3x24) hz]
  funext y
  obtain ⟨cc, r, rfl⟩ : ∃ (cc : Fin 3) (r : Fin 1024), y = ix2 cc r := ⟨y 0, y 1, eq_ix2 y⟩
  show k0_pay2 (F := Ideal) (iblk m c 0 t) (iblk m c 1 t) (iblk m c 2 t) (iblk m c 3 t) (iblk m c 4 t) (iblk m c 5 t)
      (iblk m c 6 t) (iblk m c 7 t) (ix2 cc r) = G9 m c (((cfg0.win 9).blk t).view.emb (ix2 cc r))
  rw [Body.pay2_apply (blocks m c t) cc r, emb9]
  rfl

/-- What point t writes back to the float output is block t of `G10`. -/
theorem flushed10 (t : Fin cfg0.N) :
    (dats m 0 c).flushed 10 t = ((cfg0.win 10).blk t).view.read (Elt Ideal) (G10 m c) := by
  show (cfg0.win 10).cut (grid0.coords t) ((dats m 0 c).after 10 t) = _
  rw [after0_10]
  unfold out0_10
  rw [View.canon_unit_zero hz]
  simp only [View.ld_unit_zero (S := S1024x16) hz, View.ld_unit_zero (S := S16x1024) hz, View.ld_unit_zero (S := S1x1024) hz,
    View.ld_unit_zero (S := S1024x1024) hz, View.ld_unit_zero (S := S1024x24) hz, View.ld_unit_zero (S := S1x24) hz,
    View.ld_unit_zero (S := S3x24) hz, View.ld_unit_zero (S := S3x1024) hz]
  funext y
  obtain ⟨cc, r, rfl⟩ : ∃ (cc : Fin 3) (r : Fin 1024), y = ix2 cc r := ⟨y 0, y 1, eq_ix2 y⟩
  show k0_pay1 (F := Ideal) (k0_pay2 (F := Ideal) (iblk m c 0 t) (iblk m c 1 t) (iblk m c 2 t) (iblk m c 3 t) (iblk m c 4 t)
      (iblk m c 5 t) (iblk m c 6 t) (iblk m c 7 t)) (iblk m c 8 t) (ix2 cc r)
    = G10 m c (((cfg0.win 10).blk t).view.emb (ix2 cc r))
  rw [Body.pay1_apply, Body.pay2_apply (blocks m c t) cc r, blk8, emb10]
  rfl

theorem mem_blk9 (t : Fin cfg0.N) (i : S3x65536.Idx) :
    i ∈ ((cfg0.win 9).blk t).view.set ↔ ∀ a : Fin 2, win0_9.index t a * S3x1024.size a ≤ (i a).val ∧ (i a).val < win0_9.index t a * S3x1024.size a + S3x1024.size a := by
  show i ∈ ((View.whole main_v77_0).slice (win0_9.rect t)).set ↔ _
  rw [View.set_slice_whole, Rect.mem_set_unit]
  exact Iff.rfl

theorem mem_blk10 (t : Fin cfg0.N) (i : S3x65536.Idx) :
    i ∈ ((cfg0.win 10).blk t).view.set ↔ ∀ a : Fin 2, win0_10.index t a * S3x1024.size a ≤ (i a).val ∧ (i a).val < win0_10.index t a * S3x1024.size a + S3x1024.size a := by
  show i ∈ ((View.whole main_v77_1).slice (win0_10.rect t)).set ↔ _
  rw [View.set_slice_whole, Rect.mem_set_unit]
  exact Iff.rfl

/-- The point whose block holds column n is n div 1024. -/
def ptOf (i : S3x65536.Idx) : Fin cfg0.N :=
  ⟨(i 1).val / 1024, by have h1 : (i 1).val < 65536 := (i 1).isLt; rw [show cfg0.N = 64 from Gen.N_0]; omega⟩

theorem cover9 (i : S3x65536.Idx) :
    ∃ t : Fin cfg0.N, (cfg0.win 9).flush t = true ∧ i ∈ ((cfg0.win 9).blk t).view.set := by
  have h0 : (i 0).val < 3 := (i 0).isLt
  have h1 : (i 1).val < 65536 := (i 1).isLt
  refine ⟨ptOf i, flush0_9 _, ?_⟩
  rw [mem_blk9]
  have hv : (ptOf i).val = (i 1).val / 1024 := rfl
  have f0 := (idx_facts (ptOf i)).2.2.2.2.2.2.2.2.2.2.2.2.2.2.2.2.2.2.1
  have f1 := (idx_facts (ptOf i)).2.2.2.2.2.2.2.2.2.2.2.2.2.2.2.2.2.2.2.1
  intro a
  match a with
  | ⟨0, _⟩ => show win0_9.index (ptOf i) (0 : Fin 2) * 3 ≤ (i 0).val ∧ (i 0).val < win0_9.index (ptOf i) (0 : Fin 2) * 3 + 3; rw [f0]; omega
  | ⟨1, _⟩ => show win0_9.index (ptOf i) (1 : Fin 2) * 1024 ≤ (i 1).val ∧ (i 1).val < win0_9.index (ptOf i) (1 : Fin 2) * 1024 + 1024; rw [f1, hv]; omega

theorem cover10 (i : S3x65536.Idx) :
    ∃ t : Fin cfg0.N, (cfg0.win 10).flush t = true ∧ i ∈ ((cfg0.win 10).blk t).view.set := by
  have h0 : (i 0).val < 3 := (i 0).isLt
  have h1 : (i 1).val < 65536 := (i 1).isLt
  refine ⟨ptOf i, flush0_10 _, ?_⟩
  rw [mem_blk10]
  have hv : (ptOf i).val = (i 1).val / 1024 := rfl
  have f0 := (idx_facts (ptOf i)).2.2.2.2.2.2.2.2.2.2.2.2.2.2.2.2.2.2.2.2.1
  have f1 := (idx_facts (ptOf i)).2.2.2.2.2.2.2.2.2.2.2.2.2.2.2.2.2.2.2.2.2
  intro a
  match a with
  | ⟨0, _⟩ => show win0_10.index (ptOf i) (0 : Fin 2) * 3 ≤ (i 0).val ∧ (i 0).val < win0_10.index (ptOf i) (0 : Fin 2) * 3 + 3; rw [f0]; omega
  | ⟨1, _⟩ => show win0_10.index (ptOf i) (1 : Fin 2) * 1024 ≤ (i 1).val ∧ (i 1).val < win0_10.index (ptOf i) (1 : Fin 2) * 1024 + 1024; rw [f1, hv]; omega

theorem final9 : (dats m 0 c).arrAt 9 cfg0.N = G9 m c :=
  (dats m 0 c).arrAt_eq_of_cover 9 (G9 m c) (fun t _ => flushed9 m c t) cover9

theorem final10 : (dats m 0 c).arrAt 10 cfg0.N = G10 m c :=
  (dats m 0 c).arrAt_eq_of_cover 10 (G10 m c) (fun t _ => flushed10 m c t) cover10

/-! ## The host lines after the call, and the run -/

theorem out78 : Pipeline.afterTail₀ cfgs (dats m) 0 (V0 m) [hostOps1] c main_v78
    = res0 (PK m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v78) = _
  after_results
  rw [(Pipeline.withArrays_arr spec0 launch0.win.arr_inj c _ _ 9).trans (final9 m c)]
  funext i
  obtain ⟨cc, h, w, rfl⟩ : ∃ (cc : Fin 3) (h w : Fin 256), i = ix3 cc h w := ⟨i 0, i 1, i 2, eq_ix3 i⟩
  exact cube_of_flat 256 256 (G9 m c) shapeCasts_S3x65536_S3x256x256 cc h w (pix h w) rfl

theorem out79 : Pipeline.afterTail₀ cfgs (dats m) 0 (V0 m) [hostOps1] c main_v79
    = res1 (PK m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v79) = _
  after_results
  rw [(Pipeline.withArrays_arr spec0 launch0.win.arr_inj c _ _ 10).trans (final10 m c)]
  funext i
  obtain ⟨cc, h, w, rfl⟩ : ∃ (cc : Fin 3) (h w : Fin 256), i = ix3 cc h w := ⟨i 0, i 1, i 2, eq_ix3 i⟩
  refine (cube_of_flat 256 256 (G10 m c) shapeCasts_S3x65536_S3x256x256 cc h w (pix h w) rfl).trans ?_
  show ((((G9 m c (ix2 cc (pix h w))).toInt : ℝ)) : EReal) - V m c main_v39 (ix2 cc (pix h w)) = _
  rw [HostSide.V39, flat_of_cube 256 256 _ shapeCasts_S3x256x256_S3x65536 cc h w (pix h w) rfl]
  rfl

/-- The run: both results at the specification of the arguments, the arguments unchanged. -/
theorem run : θ_run defs (onTc (τ := τ) (main (F := Ideal))) ⟨m, fun _ => 0, ρ⟩ fun r => ∀ c : Dev nD,
      r.2.mem ((c.tc : Thread nD τ).loc main_v78)
        = res0 (PK m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v79)
        = res1 (PK m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v78 (Pipeline.mem_restRefs_of main_v78 (by decide) (by decide))).trans (out78 m c),
      ((h c).2 main_v79 (Pipeline.mem_restRefs_of main_v79 (by decide) (by decide))).trans (out79 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KerValue

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibXnorRef.lean ====
/-
  One layer of a binary (XNOR-popcount) network as the host spells it, on the extended reals.
  With the input bits xb (shape [N, D]), the mask bits mb ([D, O]) and the thresholds T ([O]): both converted to
  numbers, the product xb·mb plus the product (1 − xb)·(1 − mb) — each literal 1 a rank-0 constant spread over the
  operand's shape — compared (greater than) with the thresholds converted as signed integers, made a row and spread over
  the N rows, is at (n, o) the agreement bit of row n of xb with column o of mb against T(o).
  Over the library, the plain-product lemmas and the host-broadcast lemmas; every extent is a variable.
-/
import Idealize.ShloMosaic.PureOps.Ideal.Laws
import Idealize.ShloMosaic.Lib.ValueIdx
import Idealize.ShloMosaic.Lib.Pipeline.Value
import proofs.«107590_j11020886082300_2_alg».proof.Proof.LibPlainDot
import proofs.«107590_j11020886082300_2_alg».proof.Proof.LibHostBroadcast
import proofs.«107590_j11020886082300_2_alg».proof.Proof.LibXnorHost
import proofs.«107590_j11020886082300_2_alg».proof.Proof.LibXnorStage

noncomputable section

namespace Cert.LibXnorRef

open Idealize.ShloMosaic Idealize.ShloMosaic.ValueIdx Cert.LibXnorStage

/-- The host's spelling of a layer, at row n and output o. -/
theorem host_stage (N D O : ℕ) (xb : IVec ⟨2, ![N, D]⟩ 1) (mb : IVec ⟨2, ![D, O]⟩ 1) (T : IVec ⟨1, ![O]⟩ 32)
    (hx0 : (⟨0, ![]⟩ : Shape).BroadcastsInDim ⟨2, ![N, D]⟩ (![] : Fin 0 → Fin 2))
    (hm0 : (⟨0, ![]⟩ : Shape).BroadcastsInDim ⟨2, ![D, O]⟩ (![] : Fin 0 → Fin 2))
    (h1 : (⟨1, ![O]⟩ : Shape).BroadcastsInDim ⟨2, ![1, O]⟩ (![1] : Fin 1 → Fin 2))
    (h2 : (⟨2, ![1, O]⟩ : Shape).BroadcastsInDim ⟨2, ![N, O]⟩ (![0, 1] : Fin 2 → Fin 2))
    (n : Fin N) (o : Fin O) :
    cmpf .ogt
      (addf (Host.dotGeneral (F := Ideal) (DotDims.plain N D O) none (uitofp .f32 xb) (uitofp .f32 mb))
        (Host.dotGeneral (F := Ideal) (DotDims.plain N D O) none
          (subf (broadcastInDim ⟨2, ![N, D]⟩ ![] hx0 (constant (F := Ideal) ⟨0, ![]⟩ .f32 0x3F800000#32)) (uitofp .f32 xb))
          (subf (broadcastInDim ⟨2, ![D, O]⟩ ![] hm0 (constant (F := Ideal) ⟨0, ![]⟩ .f32 0x3F800000#32)) (uitofp .f32 mb))))
      (broadcastInDim ⟨2, ![N, O]⟩ ![0, 1] h2 (broadcastInDim ⟨2, ![1, O]⟩ ![1] h1 (sitofp (F := Ideal) .f32 T))) (ix2 n o)
    = agreeBit (fun k => xb (ix2 n k)) (fun k => mb (ix2 k o)) (T (ix1 o)) := by
  unfold agreeBit
  show Ideal.cmp .ogt
    (Host.dotGeneral (F := Ideal) (DotDims.plain N D O) none (uitofp .f32 xb) (uitofp .f32 mb) (ix2 n o)
      + Host.dotGeneral (F := Ideal) (DotDims.plain N D O) none
          (subf (broadcastInDim ⟨2, ![N, D]⟩ ![] hx0 (constant (F := Ideal) ⟨0, ![]⟩ .f32 0x3F800000#32)) (uitofp .f32 xb))
          (subf (broadcastInDim ⟨2, ![D, O]⟩ ![] hm0 (constant (F := Ideal) ⟨0, ![]⟩ .f32 0x3F800000#32)) (uitofp .f32 mb))
          (ix2 n o))
    (broadcastInDim ⟨2, ![N, O]⟩ ![0, 1] h2 (broadcastInDim ⟨2, ![1, O]⟩ ![1] h1 (sitofp (F := Ideal) .f32 T)) (ix2 n o)) = _
  rw [Cert.LibPlainDot.dotGeneral_plain, Cert.LibPlainDot.dotGeneral_plain, Cert.LibHostBroadcast.vec_along_cols]
  refine congrArg₂ (Ideal.cmp .ogt) (congrArg₂ (· + ·) rfl (Finset.sum_congr rfl fun k _ => ?_)) rfl
  show (broadcastInDim ⟨2, ![N, D]⟩ ![] hx0 (constant (F := Ideal) ⟨0, ![]⟩ .f32 0x3F800000#32) (ix2 n k)
        - (((xb (ix2 n k)).toNat : ℝ) : EReal))
      * (broadcastInDim ⟨2, ![D, O]⟩ ![] hm0 (constant (F := Ideal) ⟨0, ![]⟩ .f32 0x3F800000#32) (ix2 k o)
        - (((mb (ix2 k o)).toNat : ℝ) : EReal)) = _
  rw [Cert.LibXnorHost.bcast_const, Cert.LibXnorHost.bcast_const]

end Cert.LibXnorRef

end
-- ==== Proof.RefValue.lean ====
/-
  The reference's two results, read at an index, are the specification (`Spec.outInt`) of its arguments.
  Its three layers are the host's spelling of a layer (two products, a sum, a comparison with the broadcast thresholds),
  each fed by the previous one's bits; the 65536×24 bits are recast to [256, 256, 3, 8], widened, multiplied by the weights
  2^(7 − b) (computed on the host by repeated squaring: eight closed words) and summed along the last axis from 0, and
  the [256, 256, 3] result is transposed to [3, 256, 256]. The float result is that integer as a number minus the image.
-/
import proofs.«107590_j11020886082300_2_alg».proof.Proof.RefRead
import proofs.«107590_j11020886082300_2_alg».proof.Proof.LibXnorRef
import proofs.«107590_j11020886082300_2_alg».proof.Proof.Spec

noncomputable section

namespace Cert.ReferenceIdeal.RefValue

open Cert.ReferenceIdeal Cert.ReferenceIdeal.Gen Cert.ReferenceIdeal.ReadP Idealize.ShloMosaic Idealize.ShloMosaic.ValueIdx
open Cert.LibXnorStage Cert.LibBitPack Cert.Spec

/-- The position bits: row n holds the sixteen bits of pixel n's coordinates. A closed term, never opened here. -/
def posBits : Fin 65536 → Fin 16 → BitVec 1 := fun n k => val_main_v37 (F := Ideal) (ix2 n k)

section
variable (x1 : (⟨S16x1024, .i1⟩ : BufTy).Contents (Elt Ideal)) (x2 : (⟨S1024, .i32⟩ : BufTy).Contents (Elt Ideal))
    (x3 : (⟨S1024x1024, .i1⟩ : BufTy).Contents (Elt Ideal)) (x4 : (⟨S1024, .i32⟩ : BufTy).Contents (Elt Ideal))
    (x5 : (⟨S1024x24, .i1⟩ : BufTy).Contents (Elt Ideal)) (x6 : (⟨S24, .i32⟩ : BufTy).Contents (Elt Ideal))

/-- Layer 1 at pixel n, output o. -/
theorem layer1 (n : Fin 65536) (o : Fin 1024) :
    val_main_v50 (F := Ideal) x1 x2 (ix2 n o)
      = net1 (fun k o => x1 (ix2 k o)) (fun o => x2 (ix1 o)) (posBits n) o := by
  unfold val_main_v50 val_main_v46 val_main_v49 val_main_v48 val_main_v47 val_main_v40 val_main_v45 val_main_v42
    val_main_v44 val_main_v41 val_main_v43 val_main_v38 val_main_v39 val_main_cst val_main_cst_7
  exact Cert.LibXnorRef.host_stage 65536 16 1024 (val_main_v37 (F := Ideal)) x1 x2 _ _ _ _ n o

/-- Layer 2. -/
theorem layer2 (n : Fin 65536) (o : Fin 1024) :
    val_main_v63 (F := Ideal) x1 x2 x3 x4 (ix2 n o)
      = net2 (fun k o => x1 (ix2 k o)) (fun o => x2 (ix1 o)) (fun k o => x3 (ix2 k o)) (fun o => x4 (ix1 o)) (posBits n) o := by
  unfold val_main_v63 val_main_v59 val_main_v62 val_main_v61 val_main_v60 val_main_v53 val_main_v58 val_main_v55
    val_main_v57 val_main_v54 val_main_v56 val_main_v51 val_main_v52 val_main_cst_8 val_main_cst_9
  refine (Cert.LibXnorRef.host_stage 65536 1024 1024 (val_main_v50 (F := Ideal) x1 x2) x3 x4 _ _ _ _ n o).trans ?_
  unfold net2
  exact congrArg (fun f : Fin 1024 → BitVec 1 => agreeBit f (fun k => x3 (ix2 k o)) (x4 (ix1 o)))
    (funext fun k => layer1 x1 x2 n k)

/-- Layer 3. -/
theorem layer3 (n : Fin 65536) (o : Fin 24) :
    val_main_v76 (F := Ideal) x1 x2 x3 x4 x5 x6 (ix2 n o)
      = net (fun k o => x1 (ix2 k o)) (fun o => x2 (ix1 o)) (fun k o => x3 (ix2 k o)) (fun o => x4 (ix1 o))
          (fun k o => x5 (ix2 k o)) (fun o => x6 (ix1 o)) (posBits n) o := by
  unfold val_main_v76 val_main_v72 val_main_v75 val_main_v74 val_main_v73 val_main_v66 val_main_v71 val_main_v68
    val_main_v70 val_main_v67 val_main_v69 val_main_v64 val_main_v65 val_main_cst_10 val_main_cst_11
  refine (Cert.LibXnorRef.host_stage 65536 1024 24 (val_main_v63 (F := Ideal) x1 x2 x3 x4) x5 x6 _ _ _ _ n o).trans ?_
  unfold net
  exact congrArg (fun f : Fin 1024 → BitVec 1 => agreeBit f (fun k => x5 (ix2 k o)) (x6 (ix1 o)))
    (funext fun k => layer2 x1 x2 x3 x4 n k)

end

/-- The eight weights the host computes: 2^(7 − b). -/
theorem weights (b : Fin 8) : val_main_v133 (F := Ideal) (ix1 b) = BitVec.ofNat 32 (2 ^ (7 - b.val)) := by
  fin_cases b <;> rfl

section
variable (x0 : (⟨S3x256x256, .f32⟩ : BufTy).Contents (Elt Ideal)) (x1 : (⟨S16x1024, .i1⟩ : BufTy).Contents (Elt Ideal)) (x2 : (⟨S1024, .i32⟩ : BufTy).Contents (Elt Ideal))
    (x3 : (⟨S1024x1024, .i1⟩ : BufTy).Contents (Elt Ideal)) (x4 : (⟨S1024, .i32⟩ : BufTy).Contents (Elt Ideal))
    (x5 : (⟨S1024x24, .i1⟩ : BufTy).Contents (Elt Ideal)) (x6 : (⟨S24, .i32⟩ : BufTy).Contents (Elt Ideal))

/-- The integer result at (c, h, w). -/
theorem out0 (c : Fin 3) (h w : Fin 256) :
    val_main_v142 (F := Ideal) x1 x2 x3 x4 x5 x6 (ix3 c h w)
      = outInt (fun k o => x1 (ix2 k o)) (fun o => x2 (ix1 o)) (fun k o => x3 (ix2 k o)) (fun o => x4 (ix1 o))
          (fun k o => x5 (ix2 k o)) (fun o => x6 (ix1 o)) posBits c h w := by
  have hR : S256x256x3x8.Reduces [3] S256x256x3 := by decide
  rw [val_main_v142_apply]
  unfold val_main_v141
  rw [Host.reduce_eq_fold_single IntOp.addi _ _ reducesTo_S256x256x3x8_S256x256x3_d3 hR h_S_]
  have hf : (val_main_v140 (F := Ideal) x1 x2 x3 x4 x5 x6 ∘ hR.lift (idx_main_v142 (ix3 c h w)))
      = fun b : Fin 8 => IntOp.muli
          ((net (fun k o => x1 (ix2 k o)) (fun o => x2 (ix1 o)) (fun k o => x3 (ix2 k o)) (fun o => x4 (ix1 o))
            (fun k o => x5 (ix2 k o)) (fun o => x6 (ix1 o)) (posBits (pix h w)) (col c b)).setWidth 32)
          (val_main_v133 (F := Ideal) (ix1 b)) := funext fun (b : Fin 8) => by
    have hi : hR.lift (idx_main_v142 (ix3 c h w)) b = ix4 h w c b :=
      funext fun a => Fin.ext (by match a with | ⟨0, _⟩ => rfl | ⟨1, _⟩ => rfl | ⟨2, _⟩ => rfl | ⟨3, _⟩ => rfl)
    show val_main_v140 (F := Ideal) x1 x2 x3 x4 x5 x6 (hR.lift (idx_main_v142 (ix3 c h w)) b) = _
    rw [hi, val_main_v140_apply, val_main_v137_apply, val_main_v77_apply, val_main_v139_apply, val_main_v138_apply]
    have e1 : idx_main_v77 (ix4 h w c b) = ix2 (pix h w) (col c b) :=
      funext fun a => Fin.ext (by
        have hh := h.isLt; have hw := w.isLt; have hc := c.isLt; have hb := b.isLt
        match a with
        | ⟨0, _⟩ => show (((h.val * 256 + w.val) * 3 + c.val) * 8 + b.val) / 24 = 256 * h.val + w.val; omega
        | ⟨1, _⟩ => show (((h.val * 256 + w.val) * 3 + c.val) * 8 + b.val) % 24 = 8 * c.val + b.val; omega)
    have e2 : idx_main_v138 (idx_main_v139 (ix4 h w c b)) = ix1 b :=
      funext fun a => Fin.ext (by match a with | ⟨0, _⟩ => rfl)
    rw [e1, e2, layer3]
  rw [hf]
  exact fold_pack _ _ weights

/-- The float result at (c, h, w): the integer as a number minus the image's entry. -/
theorem out1 (c : Fin 3) (h w : Fin 256) :
    val_main_v144 (F := Ideal) x0 x1 x2 x3 x4 x5 x6 (ix3 c h w)
      = ((((outInt (fun k o => x1 (ix2 k o)) (fun o => x2 (ix1 o)) (fun k o => x3 (ix2 k o)) (fun o => x4 (ix1 o))
          (fun k o => x5 (ix2 k o)) (fun o => x6 (ix1 o)) posBits c h w).toInt : ℝ)) : EReal) - x0 (ix3 c h w) := by
  rw [val_main_v144_apply, val_main_v143_apply, out0]
  rfl

end

end Cert.ReferenceIdeal.RefValue

end
-- ==== Proof.lean ====
/-
  A three-layer binary (XNOR-popcount) network evaluated at every pixel of a 256×256 image: the pixel's sixteen position
  bits go through layers 16 → 1024 → 1024 → 24, a layer's output bit o being "the number of positions where the input row
  and column o of the mask agree exceeds threshold o"; the 24 final bits are three bytes, the pixel's three channels,
  and the second result is that integer minus the image.

  The reference counts agreements as  x·m + (1 − x)·(1 − m)  summed over the inputs. The kernel folds the count:
  term by term  x·m + (1 − x)(1 − m) = x·(2m − 1) + (1 − m),  so the count exceeds τ exactly when  Σ x·(2m − 1)  exceeds
  (τ − D) + Σ m  — one matrix product per layer against a threshold row prepared on the host (`LibXnorFold`). All
  quantities are 0/1 numbers and integers, hence real, and the comparison on the extended reals is the comparison of reals.
  The kernel packs a byte as the float sum Σ_j w(c, j)·bit_j with the weights 128 … 1 in channel c's eight columns,
  converted to an integer; the reference as the integer sum Σ_b bit_{8c+b}·2^(7−b): one natural number below 256 (`LibBitPack`).
  Both programs build the position bits by the same host lines, so those are carried as one closed term and never opened.

  `KerValue.run`: the kernel program's results as `Spec.res0` / `Spec.res1` of its arguments (body value, the 64 blocks
  tiling the outputs, the recasts after the call). `RefValue.out0` / `out1`: the reference's results, index by index, the same.
-/
import proofs.«107590_j11020886082300_2_alg».proof.Defs
import proofs.«107590_j11020886082300_2_alg».proof.Proof.Gen.Kernel
import proofs.«107590_j11020886082300_2_alg».proof.Proof.Gen.Kernel.Skeleton
import proofs.«107590_j11020886082300_2_alg».proof.Proof.Gen.Kernel.Launch
import proofs.«107590_j11020886082300_2_alg».proof.Proof.Gen.Kernel.Points
import proofs.«107590_j11020886082300_2_alg».proof.Proof.Gen.Kernel.Frame
import proofs.«107590_j11020886082300_2_alg».proof.Proof.Gen.KernelIdeal
import proofs.«107590_j11020886082300_2_alg».proof.Proof.Gen.KernelIdeal.Skeleton
import proofs.«107590_j11020886082300_2_alg».proof.Proof.Gen.KernelIdeal.Launch
import proofs.«107590_j11020886082300_2_alg».proof.Proof.Gen.KernelIdeal.Points
import proofs.«107590_j11020886082300_2_alg».proof.Proof.Gen.KernelIdeal.Frame
import proofs.«107590_j11020886082300_2_alg».proof.Proof.Gen.ReferenceIdeal
import proofs.«107590_j11020886082300_2_alg».proof.Proof.Gen.Pre_finite_inputs
import proofs.«107590_j11020886082300_2_alg».proof.Proof.KerValue
import proofs.«107590_j11020886082300_2_alg».proof.Proof.RefValue
import Idealize.ShloMosaic.Adequacy
import Idealize.ShloMosaic.Init

noncomputable section

namespace Cert.Proof

open Idealize.ShloMosaic Idealize.ShloMosaic.ValueIdx Idealize.ShloMosaic.StableHlo Idealize.SL.Sem Cert.Spec

/-- The kernel program's position bits are the reference's: the same host lines, the same closed term. -/
theorem pos_eq (m : (ℓ : Loc Cert.KernelIdeal.nD Cert.KernelIdeal.τ Cert.KernelIdeal.sig) → Buf (Elt Ideal) ℓ)
    (c : Dev Cert.KernelIdeal.nD) :
    Cert.KernelIdeal.KerValue.PK m c = Cert.ReferenceIdeal.RefValue.posBits := by
  have e : Cert.KernelIdeal.Gen.V m c Cert.KernelIdeal.main_v37 = Cert.ReferenceIdeal.ReadP.val_main_v37 (F := Ideal) := by
    show StableHlo.after Cert.KernelIdeal.Gen.hostOps0 (fun b => m (c, b)) (Proc.devRef .tc Cert.KernelIdeal.main_v37) = _
    after_results_simp <;> rfl
  funext n k
  exact congrFun e (ix2 n k)

theorem frame_p : Cert.frame_Kernel := fun m ρ _ => Cert.Kernel.Gen.frame m ρ

theorem frame_pi : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs end with the specification's two arrays of the (agreeing) arguments. -/
theorem algebraic : Cert.algebraic_KernelIdeal_ReferenceIdeal := by
  intro m ρ m' ρ' _ hagree
  refine ⟨fun c => res0 Cert.ReferenceIdeal.RefValue.posBits (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => res1 Cert.ReferenceIdeal.RefValue.posBits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun _ h c => ?_) (Cert.KernelIdeal.KerValue.run m ρ)
    obtain ⟨h0, h1, hargs⟩ := h c
    rw [pos_eq m c] at h0 h1
    exact ⟨h0, h1, hargs⟩
  · refine (θ_run Cert.ReferenceIdeal.defs _ _).mono (fun _ h c => ?_) (Cert.ReferenceIdeal.ValueP.run (F := Ideal) m' ρ')
    obtain ⟨h0, h1, hargs⟩ := h c
    obtain ⟨a0, a1, a2, a3, a4, a5, a6⟩ := hagree c
    refine ⟨h0.trans ?_, h1.trans ?_, hargs⟩
    · rw [Cert.ReferenceIdeal.ReadP.val_main_v142_eq, a1, a2, a3, a4, a5, a6]
      funext i
      obtain ⟨cc, hh, w, rfl⟩ : ∃ (cc : Fin 3) (hh w : Fin 256), i = ix3 cc hh w := ⟨i 0, i 1, i 2, eq_ix3 i⟩
      exact Cert.ReferenceIdeal.RefValue.out0 _ _ _ _ _ _ cc hh w
    · rw [Cert.ReferenceIdeal.ReadP.val_main_v144_eq, a0, a1, a2, a3, a4, a5, a6]
      funext i
      obtain ⟨cc, hh, w, rfl⟩ : ∃ (cc : Fin 3) (hh w : Fin 256), i = ix3 cc hh w := ⟨i 0, i 1, i 2, eq_ix3 i⟩
      exact Cert.ReferenceIdeal.RefValue.out1 _ _ _ _ _ _ _ cc hh w

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
